-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_temp" .f32 0x41A00000#32 ((268435456 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x256 : Shape := ⟨2, ![256, 256]⟩
abbrev S65536x256 : Shape := ⟨2, ![65536, 256]⟩
abbrev S256 : Shape := ⟨1, ![256]⟩
abbrev S65536 : Shape := ⟨1, ![65536]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel
  bcast_S_S65536x256 : S_.BroadcastsInDim S65536x256 (![] : Fin 0 → Fin S65536x256.rank)
  reducesTo_S65536x256_S_d0_1 : S65536x256.ReducesTo [0, 1] S_

variable [Facts]

def fn {F : FTy → Type} [FloatOps F] (main_arg0 : FVec F S256x256 .f32) (main_arg1 : FVec F S65536x256 .f32) (main_arg2 : IVec S256 32) (main_arg3 : IVec S65536 32) : IVec S_ 1 :=
  let main_v0 : FVec F S256x256 .f32 := Host.absf main_arg0
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_c : IVec S_ 1 := constantI S_ 1 1#1
  let main_v3 : IVec S_ 1 := (fun x v => Host.reduce IntOp.andi x v reducesTo_S256x256_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  main_v8
-- ==== Kernel.lean ====
abbrev S256x256 : Shape := ⟨2, ![256, 256]⟩
abbrev S65536x256 : Shape := ⟨2, ![65536, 256]⟩
abbrev S256 : Shape := ⟨1, ![256]⟩
abbrev S65536 : Shape := ⟨1, ![65536]⟩
abbrev S_ : Shape := ⟨0, ![]⟩
abbrev S256x1 : Shape := ⟨2, ![256, 1]⟩
abbrev S8192x256 : Shape := ⟨2, ![8192, 256]⟩
abbrev S65536x1 : Shape := ⟨2, ![65536, 1]⟩
abbrev S8192 : Shape := ⟨1, ![8192]⟩
abbrev S8192x1 : Shape := ⟨2, ![8192, 1]⟩
abbrev S2048x256 : Shape := ⟨2, ![2048, 256]⟩
abbrev S256x8192 : Shape := ⟨2, ![256, 8192]⟩
abbrev S1x8192 : Shape := ⟨2, ![1, 8192]⟩
abbrev S256x2 : Shape := ⟨2, ![256, 2]⟩

abbrev nBuf : Space → Nat
  | .hbm => 88
  | .vmem => 5
  | .smem => 0
  | _ => 0

abbrev bufTy : (tb : Table) → Fin (tcTables nBuf tb) → BufTy
  | .hbm, ⟨0, _⟩ => ⟨S256x256, .f32⟩
  | .hbm, ⟨1, _⟩ => ⟨S65536x256, .f32⟩
  | .hbm, ⟨2, _⟩ => ⟨S256, .i32⟩
  | .hbm, ⟨3, _⟩ => ⟨S65536, .i32⟩
  | .hbm, ⟨4, _⟩ => ⟨S256x256, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S_, .f32⟩
  | .hbm, ⟨16, _⟩ => ⟨S8192x256, .f32⟩
  | .hbm, ⟨17, _⟩ => ⟨S65536x1, .i32⟩
  | .hbm, ⟨18, _⟩ => ⟨S8192x256, .f32⟩
  | .hbm, ⟨19, _⟩ => ⟨S_, .f32⟩
  | .hbm, ⟨20, _⟩ => ⟨S65536, .f32⟩
  | .hbm, ⟨21, _⟩ => ⟨S_, .f32⟩
  | .hbm, ⟨22, _⟩ => ⟨S8192, .f32⟩
  | .hbm, ⟨23, _⟩ => ⟨S65536x1, .i32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .i1⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x256, .f32⟩
  | .hbm, ⟨36, _⟩ => ⟨S8192x256, .f32⟩
  | .hbm, ⟨37, _⟩ => ⟨S8192x256, .f32⟩
  | .hbm, ⟨38, _⟩ => ⟨S256x8192, .f32⟩
  | .hbm, ⟨39, _⟩ => ⟨S256x8192, .f32⟩
  | .hbm, ⟨40, _⟩ => ⟨S1x8192, .f32⟩
  | .hbm, ⟨41, _⟩ => ⟨S256x8192, .f32⟩
  | .hbm, ⟨42, _⟩ => ⟨S256x8192, .f32⟩
  | .hbm, ⟨43, _⟩ => ⟨S_, .f32⟩
  | .hbm, ⟨44, _⟩ => ⟨S256, .f32⟩
  | .hbm, ⟨45, _⟩ => ⟨S256x1, .f32⟩
  | .hbm, ⟨46, _⟩ => ⟨S_, .f32⟩
  | .hbm, ⟨47, _⟩ => ⟨S256x1, .f32⟩
  | .hbm, ⟨48, _⟩ => ⟨S256x1, .f32⟩
  | .hbm, ⟨49, _⟩ => ⟨S256x8192, .f32⟩
  | .hbm, ⟨50, _⟩ => ⟨S256x8192, .f32⟩
  | .hbm, ⟨51, _⟩ => ⟨S_, .i32⟩
  | .hbm, ⟨52, _⟩ => ⟨S256, .i32⟩
  | .hbm, ⟨53, _⟩ => ⟨S256, .i1⟩
  | .hbm, ⟨54, _⟩ => ⟨S_, .i32⟩
  | .hbm, ⟨55, _⟩ => ⟨S256, .i32⟩
  | .hbm, ⟨56, _⟩ => ⟨S256, .i32⟩
  | .hbm, ⟨57, _⟩ => ⟨S256, .i32⟩
  | .hbm, ⟨58, _⟩ => ⟨S256x1, .i32⟩
  | .hbm, ⟨59, _⟩ => ⟨S256, .i32⟩
  | .hbm, ⟨60, _⟩ => ⟨S_, .f32⟩
  | .hbm, ⟨61, _⟩ => ⟨S256x8192, .f32⟩
  | .hbm, ⟨62, _⟩ => ⟨S256x8192, .f32⟩
  | .hbm, ⟨63, _⟩ => ⟨S256x8192, .f32⟩
  | .hbm, ⟨64, _⟩ => ⟨S256, .i32⟩
  | .hbm, ⟨65, _⟩ => ⟨S_, .i32⟩
  | .hbm, ⟨66, _⟩ => ⟨S256, .i32⟩
  | .hbm, ⟨67, _⟩ => ⟨S256, .i1⟩
  | .hbm, ⟨68, _⟩ => ⟨S_, .i32⟩
  | .hbm, ⟨69, _⟩ => ⟨S256, .i32⟩
  | .hbm, ⟨70, _⟩ => ⟨S256, .i32⟩
  | .hbm, ⟨71, _⟩ => ⟨S256, .i32⟩
  | .hbm, ⟨72, _⟩ => ⟨S_, .i32⟩
  | .hbm, ⟨73, _⟩ => ⟨S256, .i32⟩
  | .hbm, ⟨74, _⟩ => ⟨S256, .i1⟩
  | .hbm, ⟨75, _⟩ => ⟨S_, .i32⟩
  | .hbm, ⟨76, _⟩ => ⟨S256, .i32⟩
  | .hbm, ⟨77, _⟩ => ⟨S256, .i32⟩
  | .hbm, ⟨78, _⟩ => ⟨S256, .i32⟩
  | .hbm, ⟨79, _⟩ => ⟨S256x1, .i32⟩
  | .hbm, ⟨80, _⟩ => ⟨S256x1, .i32⟩
  | .hbm, ⟨81, _⟩ => ⟨S256x2, .i32⟩
  | .hbm, ⟨82, _⟩ => ⟨S256, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .local _ .vmem, ⟨0, _⟩ => ⟨S2048x256, .f32⟩
  | .local _ .vmem, ⟨1, _⟩ => ⟨S2048x256, .f32⟩
  | .local _ .vmem, ⟨2, _⟩ => ⟨S256x256, .f32⟩
  | .local _ .vmem, ⟨3, _⟩ => ⟨S2048x256, .f32⟩
  | .local _ .vmem, ⟨4, _⟩ => ⟨S2048x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c : Ref sig .tc := ⟨.hbm, 51, rfl⟩
abbrev main_v35 : Ref sig .tc := ⟨.hbm, 52, rfl⟩
abbrev main_v36 : Ref sig .tc := ⟨.hbm, 53, rfl⟩
abbrev main_c_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_c_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_13 : Ref sig .tc := ⟨.hbm, 83, rfl⟩
abbrev main_v60 : Ref sig .tc := ⟨.hbm, 84, rfl⟩
abbrev main_cst_14 : Ref sig .tc := ⟨.hbm, 85, rfl⟩
abbrev main_v61 : Ref sig .tc := ⟨.hbm, 86, rfl⟩
abbrev main_v62 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S256x256_S256_d1 : S256x256.ReducesTo [1] S256
  h_S_ : 0 < S_.numel
  bcast_S256_S256x1_0 : S256.BroadcastsInDim S256x1 (![0] : Fin 1 → Fin S256x1.rank)
  bcast_S_S256x1 : S_.BroadcastsInDim S256x1 (![] : Fin 0 → Fin S256x1.rank)
  bcast_S256x1_S256x256_0_1 : S256x1.BroadcastsInDim S256x256 (![0, 1] : Fin 2 → Fin S256x256.rank)
  transposes_S256x256_S256x256_1_0 : S256x256.Transposes [1, 0] S256x256
  bcast_S_S8192x256 : S_.BroadcastsInDim S8192x256 (![] : Fin 0 → Fin S8192x256.rank)
  bcast_S65536_S65536x1_0 : S65536.BroadcastsInDim S65536x1 (![0] : Fin 1 → Fin S65536x1.rank)
  bcast_S_S65536 : S_.BroadcastsInDim S65536 (![] : Fin 0 → Fin S65536.rank)
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S8192x1_S8192x256_0_1 : S8192x1.BroadcastsInDim S8192x256 (![0, 1] : Fin 2 → Fin S8192x256.rank)
  transposes_S8192x256_S256x8192_1_0 : S8192x256.Transposes [1, 0] S256x8192
  transposes_S8192x1_S1x8192_1_0 : S8192x1.Transposes [1, 0] S1x8192
  bcast_S1x8192_S256x8192_0_1 : S1x8192.BroadcastsInDim S256x8192 (![0, 1] : Fin 2 → Fin S256x8192.rank)
  reducesTo_S256x8192_S256_d1 : S256x8192.ReducesTo [1] S256
  bcast_S256x1_S256x8192_0_1 : S256x1.BroadcastsInDim S256x8192 (![0, 1] : Fin 2 → Fin S256x8192.rank)
  bcast_S_S256 : S_.BroadcastsInDim S256 (![] : Fin 0 → Fin S256.rank)
  bcast_S_S256x8192 : S_.BroadcastsInDim S256x8192 (![] : Fin 0 → Fin S256x8192.rank)
  concatenates_S256x1_S256x1_S256x2_d1 : Shape.Concatenates [S256x1, S256x1] S256x2 1
  reducesTo_S256_S_d0 : S256.ReducesTo [0] S_
  scatter_S8192x256_S65536x1_S65536x256_1_0_0_1_wf : ScatterDims.WF S8192x256 S65536x1 S65536x256 [1] [0] [0] 1
  scatter_S8192_S65536x1_S65536_n_0_0_1_wf : ScatterDims.WF S8192 S65536x1 S65536 [] [0] [0] 1
  dot_S2048x256_S256x256_S2048x256_1_0_0_1_n_n_wf : DotDims.WF S2048x256 S256x256 S2048x256 [1] [0] [0] [1] [] []
  gather_S65536_S256x1_S256_n_0_n_n_0_1_1_wf : GatherDims.WF S65536 S256x1 S256 [] [0] [] [0] [] 1 ![1]
  gather_S256x8192_S256x2_S256_n_01_n_n_01_1_11_wf : GatherDims.WF S256x8192 S256x2 S256 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .f32 = 32 ∨ (Rect.block (s := S8192x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S8192x256.size a
  hwx0_2 : ∀ i : grid0.Coords, EltTy.bits .f32 = 32 ∨ (Rect.block (s := S8192x256) S2048x256.size (cc0_transform_2 i) (hinb0_2 i)).WholeWords (EltTy.packing .f32)

variable [Facts₀]

def scatter_S8192x256_S65536x1_S65536x256_1_0_0_1 : ScatterDims S8192x256 S65536x1 S65536x256 where
  updateWindowDims := [1]
  insertedWindowDims := [0]
  scatterDimsToOperandDims := [0]
  indexVectorDim := 1
  wf := scatter_S8192x256_S65536x1_S65536x256_1_0_0_1_wf
def scatter_S8192_S65536x1_S65536_n_0_0_1 : ScatterDims S8192 S65536x1 S65536 where
  updateWindowDims := []
  insertedWindowDims := [0]
  scatterDimsToOperandDims := [0]
  indexVectorDim := 1
  wf := scatter_S8192_S65536x1_S65536_n_0_0_1_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def gather_S65536_S256x1_S256_n_0_n_n_0_1_1 : GatherDims S65536 S256x1 S256 where
  offsetDims := []
  collapsedSliceDims := [0]
  operandBatchingDims := []
  startIndicesBatchingDims := []
  startIndexMap := [0]
  indexVectorDim := 1
  sliceSizes := ![1]
  wf := gather_S65536_S256x1_S256_n_0_n_n_0_1_1_wf
def gather_S256x8192_S256x2_S256_n_01_n_n_01_1_11 : GatherDims S256x8192 S256x2 S256 where
  offsetDims := []
  collapsedSliceDims := [0, 1]
  operandBatchingDims := []
  startIndicesBatchingDims := []
  startIndexMap := [0, 1]
  indexVectorDim := 1
  sliceSizes := ![1, 1]
  wf := gather_S256x8192_S256x2_S256_n_01_n_n_01_1_11_wf

abbrev win0_0 : Pipeline.Window sig grid0 :=
  Pipeline.Window.ofSpec (Memref.whole main_v8) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x256 : Shape := ⟨2, ![256, 256]⟩
abbrev S65536x256 : Shape := ⟨2, ![65536, 256]⟩
abbrev S256 : Shape := ⟨1, ![256]⟩
abbrev S65536 : Shape := ⟨1, ![65536]⟩
abbrev S_ : Shape := ⟨0, ![]⟩
abbrev S256x1 : Shape := ⟨2, ![256, 1]⟩
abbrev S256x65536 : Shape := ⟨2, ![256, 65536]⟩
abbrev S8192x256 : Shape := ⟨2, ![8192, 256]⟩
abbrev S65536x1 : Shape := ⟨2, ![65536, 1]⟩
abbrev S8192 : Shape := ⟨1, ![8192]⟩
abbrev S8192x1 : Shape := ⟨2, ![8192, 1]⟩
abbrev S256x8192 : Shape := ⟨2, ![256, 8192]⟩
abbrev S1x8192 : Shape := ⟨2, ![1, 8192]⟩
abbrev S256x2 : Shape := ⟨2, ![256, 2]⟩

abbrev nBuf : Space → Nat
  | .hbm => 92
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S65536x256, .f32⟩
  | .hbm, ⟨2, _⟩ => ⟨S256, .i32⟩
  | .hbm, ⟨3, _⟩ => ⟨S65536, .i32⟩
  | .hbm, ⟨4, _⟩ => ⟨S256x256, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x256, .f32⟩
  | .hbm, ⟨13, _⟩ => ⟨S256x256, .f32⟩
  | .hbm, ⟨14, _⟩ => ⟨S256x65536, .f32⟩
  | .hbm, ⟨15, _⟩ => ⟨S256x65536, .f32⟩
  | .hbm, ⟨16, _⟩ => ⟨S_, .f32⟩
  | .hbm, ⟨17, _⟩ => ⟨S256x65536, .f32⟩
  | .hbm, ⟨18, _⟩ => ⟨S256x65536, .f32⟩
  | .hbm, ⟨19, _⟩ => ⟨S65536x256, .f32⟩
  | .hbm, ⟨20, _⟩ => ⟨S_, .f32⟩
  | .hbm, ⟨21, _⟩ => ⟨S8192x256, .f32⟩
  | .hbm, ⟨22, _⟩ => ⟨S65536x1, .i32⟩
  | .hbm, ⟨23, _⟩ => ⟨S8192x256, .f32⟩
  | .hbm, ⟨24, _⟩ => ⟨S_, .f32⟩
  | .hbm, ⟨25, _⟩ => ⟨S65536, .f32⟩
  | .hbm, ⟨26, _⟩ => ⟨S_, .f32⟩
  | .hbm, ⟨27, _⟩ => ⟨S8192, .f32⟩
  | .hbm, ⟨28, _⟩ => ⟨S65536x1, .i32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .i1⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S8192x256, .f32⟩
  | .hbm, ⟨41, _⟩ => ⟨S8192x256, .f32⟩
  | .hbm, ⟨42, _⟩ => ⟨S256x8192, .f32⟩
  | .hbm, ⟨43, _⟩ => ⟨S256x8192, .f32⟩
  | .hbm, ⟨44, _⟩ => ⟨S1x8192, .f32⟩
  | .hbm, ⟨45, _⟩ => ⟨S256x8192, .f32⟩
  | .hbm, ⟨46, _⟩ => ⟨S256x8192, .f32⟩
  | .hbm, ⟨47, _⟩ => ⟨S_, .f32⟩
  | .hbm, ⟨48, _⟩ => ⟨S256, .f32⟩
  | .hbm, ⟨49, _⟩ => ⟨S256x1, .f32⟩
  | .hbm, ⟨50, _⟩ => ⟨S_, .f32⟩
  | .hbm, ⟨51, _⟩ => ⟨S256x1, .f32⟩
  | .hbm, ⟨52, _⟩ => ⟨S256x1, .f32⟩
  | .hbm, ⟨53, _⟩ => ⟨S256x8192, .f32⟩
  | .hbm, ⟨54, _⟩ => ⟨S256x8192, .f32⟩
  | .hbm, ⟨55, _⟩ => ⟨S_, .i32⟩
  | .hbm, ⟨56, _⟩ => ⟨S256, .i32⟩
  | .hbm, ⟨57, _⟩ => ⟨S256, .i1⟩
  | .hbm, ⟨58, _⟩ => ⟨S_, .i32⟩
  | .hbm, ⟨59, _⟩ => ⟨S256, .i32⟩
  | .hbm, ⟨60, _⟩ => ⟨S256, .i32⟩
  | .hbm, ⟨61, _⟩ => ⟨S256, .i32⟩
  | .hbm, ⟨62, _⟩ => ⟨S256x1, .i32⟩
  | .hbm, ⟨63, _⟩ => ⟨S256, .i32⟩
  | .hbm, ⟨64, _⟩ => ⟨S_, .f32⟩
  | .hbm, ⟨65, _⟩ => ⟨S256x8192, .f32⟩
  | .hbm, ⟨66, _⟩ => ⟨S256x8192, .f32⟩
  | .hbm, ⟨67, _⟩ => ⟨S256x8192, .f32⟩
  | .hbm, ⟨68, _⟩ => ⟨S256, .i32⟩
  | .hbm, ⟨69, _⟩ => ⟨S_, .i32⟩
  | .hbm, ⟨70, _⟩ => ⟨S256, .i32⟩
  | .hbm, ⟨71, _⟩ => ⟨S256, .i1⟩
  | .hbm, ⟨72, _⟩ => ⟨S_, .i32⟩
  | .hbm, ⟨73, _⟩ => ⟨S256, .i32⟩
  | .hbm, ⟨74, _⟩ => ⟨S256, .i32⟩
  | .hbm, ⟨75, _⟩ => ⟨S256, .i32⟩
  | .hbm, ⟨76, _⟩ => ⟨S_, .i32⟩
  | .hbm, ⟨77, _⟩ => ⟨S256, .i32⟩
  | .hbm, ⟨78, _⟩ => ⟨S256, .i1⟩
  | .hbm, ⟨79, _⟩ => ⟨S_, .i32⟩
  | .hbm, ⟨80, _⟩ => ⟨S256, .i32⟩
  | .hbm, ⟨81, _⟩ => ⟨S256, .i32⟩
  | .hbm, ⟨82, _⟩ => ⟨S256, .i32⟩
  | .hbm, ⟨83, _⟩ => ⟨S256x1, .i32⟩
  | .hbm, ⟨84, _⟩ => ⟨S256x1, .i32⟩
  | .hbm, ⟨85, _⟩ => ⟨S256x2, .i32⟩
  | .hbm, ⟨86, _⟩ => ⟨S256, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c : Ref sig .tc := ⟨.hbm, 55, rfl⟩
abbrev main_v38 : Ref sig .tc := ⟨.hbm, 56, rfl⟩
abbrev main_v39 : Ref sig .tc := ⟨.hbm, 57, rfl⟩
abbrev main_c_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_c_12 : Ref sig .tc := ⟨.hbm, 76, rfl⟩
abbrev main_v54 : Ref sig .tc := ⟨.hbm, 77, rfl⟩
abbrev main_v55 : Ref sig .tc := ⟨.hbm, 78, rfl⟩
abbrev main_c_13 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_14 : Ref sig .tc := ⟨.hbm, 87, rfl⟩
abbrev main_v63 : Ref sig .tc := ⟨.hbm, 88, rfl⟩
abbrev main_cst_15 : Ref sig .tc := ⟨.hbm, 89, rfl⟩
abbrev main_v64 : Ref sig .tc := ⟨.hbm, 90, rfl⟩
abbrev main_v65 : Ref sig .tc := ⟨.hbm, 91, rfl⟩

abbrev nD : Nat := 1
abbrev τ : Topo := Topo.v7x

variable {F : FTy → Type} [FloatOps F]

class Facts₀ : Prop where
  reducesTo_S256x256_S256_d1 : S256x256.ReducesTo [1] S256
  h_S_ : 0 < S_.numel
  bcast_S256_S256x1_0 : S256.BroadcastsInDim S256x1 (![0] : Fin 1 → Fin S256x1.rank)
  bcast_S_S256x1 : S_.BroadcastsInDim S256x1 (![] : Fin 0 → Fin S256x1.rank)
  bcast_S256x1_S256x256_0_1 : S256x1.BroadcastsInDim S256x256 (![0, 1] : Fin 2 → Fin S256x256.rank)
  transposes_S65536x256_S256x65536_1_0 : S65536x256.Transposes [1, 0] S256x65536
  bcast_S_S256x65536 : S_.BroadcastsInDim S256x65536 (![] : Fin 0 → Fin S256x65536.rank)
  transposes_S256x65536_S65536x256_1_0 : S256x65536.Transposes [1, 0] S65536x256
  bcast_S_S8192x256 : S_.BroadcastsInDim S8192x256 (![] : Fin 0 → Fin S8192x256.rank)
  bcast_S65536_S65536x1_0 : S65536.BroadcastsInDim S65536x1 (![0] : Fin 1 → Fin S65536x1.rank)
  bcast_S_S65536 : S_.BroadcastsInDim S65536 (![] : Fin 0 → Fin S65536.rank)
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  transposes_S8192x1_S1x8192_1_0 : S8192x1.Transposes [1, 0] S1x8192
  bcast_S1x8192_S256x8192_0_1 : S1x8192.BroadcastsInDim S256x8192 (![0, 1] : Fin 2 → Fin S256x8192.rank)
  reducesTo_S256x8192_S256_d1 : S256x8192.ReducesTo [1] S256
  bcast_S256x1_S256x8192_0_1 : S256x1.BroadcastsInDim S256x8192 (![0, 1] : Fin 2 → Fin S256x8192.rank)
  bcast_S_S256 : S_.BroadcastsInDim S256 (![] : Fin 0 → Fin S256.rank)
  bcast_S_S256x8192 : S_.BroadcastsInDim S256x8192 (![] : Fin 0 → Fin S256x8192.rank)
  concatenates_S256x1_S256x1_S256x2_d1 : Shape.Concatenates [S256x1, S256x1] S256x2 1
  reducesTo_S256_S_d0 : S256.ReducesTo [0] S_
  dot_S256x256_S256x65536_S256x65536_1_0_0_1_n_n_wf : DotDims.WF S256x256 S256x65536 S256x65536 [1] [0] [0] [1] [] []
  scatter_S8192x256_S65536x1_S65536x256_1_0_0_1_wf : ScatterDims.WF S8192x256 S65536x1 S65536x256 [1] [0] [0] 1
  scatter_S8192_S65536x1_S65536_n_0_0_1_wf : ScatterDims.WF S8192 S65536x1 S65536 [] [0] [0] 1
  gather_S65536_S256x1_S256_n_0_n_n_0_1_1_wf : GatherDims.WF S65536 S256x1 S256 [] [0] [] [0] [] 1 ![1]
  gather_S256x8192_S256x2_S256_n_01_n_n_01_1_11_wf : GatherDims.WF S256x8192 S256x2 S256 [] [0, 1] [] [0, 1] [] 1 ![1, 1]

variable [Facts₀]

def dot_S256x256_S256x65536_S256x65536_1_0_0_1_n_n : DotDims S256x256 S256x65536 S256x65536 where
  lhsContracting := [1]
  rhsContracting := [0]
  lhsNonContracting := [0]
  rhsNonContracting := [1]
  lhsBatch := []
  rhsBatch := []
  wf := dot_S256x256_S256x65536_S256x65536_1_0_0_1_n_n_wf
def scatter_S8192x256_S65536x1_S65536x256_1_0_0_1 : ScatterDims S8192x256 S65536x1 S65536x256 where
  updateWindowDims := [1]
  insertedWindowDims := [0]
  scatterDimsToOperandDims := [0]
  indexVectorDim := 1
  wf := scatter_S8192x256_S65536x1_S65536x256_1_0_0_1_wf
def scatter_S8192_S65536x1_S65536_n_0_0_1 : ScatterDims S8192 S65536x1 S65536 where
  updateWindowDims := []
  insertedWindowDims := [0]
  scatterDimsToOperandDims := [0]
  indexVectorDim := 1
  wf := scatter_S8192_S65536x1_S65536_n_0_0_1_wf
def gather_S65536_S256x1_S256_n_0_n_n_0_1_1 : GatherDims S65536 S256x1 S256 where
  offsetDims := []
  collapsedSliceDims := [0]
  operandBatchingDims := []
  startIndicesBatchingDims := []
  startIndexMap := [0]
  indexVectorDim := 1
  sliceSizes := ![1]
  wf := gather_S65536_S256x1_S256_n_0_n_n_0_1_1_wf
def gather_S256x8192_S256x2_S256_n_01_n_n_01_1_11 : GatherDims S256x8192 S256x2 S256 where
  offsetDims := []
  collapsedSliceDims := [0, 1]
  operandBatchingDims := []
  startIndicesBatchingDims := []
  startIndexMap := [0, 1]
  indexVectorDim := 1
  sliceSizes := ![1, 1]
  wf := gather_S256x8192_S256x2_S256_n_01_n_n_01_1_11_wf

class Facts : Prop extends Facts₀ where

variable [Facts]
-- ==== Proof.Shared.lean ====
/-
  The part the two programs share: from the class similarities to the loss.

  Both programs end with the same chain.  Given the table `sim` (class by batch item), the per-class divisor `cs`
  (the class's member count, or 1 for an empty class) and the 0/1 mask `mask` of non-empty classes:
  divide `sim` by `cs`, transpose, exponentiate, mask, normalise each batch row by its sum plus `ε`, add `ε`, take
  logarithms, pick for each batch item the entry of its target class (the label of the slot its index names),
  average over the batch and negate.  The certificate never opens this chain: it is carried as ONE function
  `loss`, and the two programs are shown to feed it equal arguments.

  `ref_eq_loss`: the reference's result is `loss` of its own stages.
-/
import proofs.«114621_j57346403336648_2_alg».proof.Proof.RefRead

noncomputable section

namespace Cert.Shared

open Cert.ReferenceIdeal Cert.ReferenceIdeal.ReadP Idealize.ShloMosaic

variable [Cert.ReferenceIdeal.Facts]
open Cert.ReferenceIdeal.Facts₀ Cert.ReferenceIdeal.Facts

/-- Masked exponentials: `exp((sim / cs)ᵀ) · maskᵀ`, batch item by class. -/
def maskedExp (sim : FVec Ideal S8192x256 .f32) (cs mask : FVec Ideal S8192x1 .f32) : FVec Ideal S256x8192 .f32 :=
  mulf (Host.exp (transpose S256x8192 [1, 0] (Host.divf sim (broadcastInDim S8192x256 ![0, 1] bcast_S8192x1_S8192x256_0_1 cs))
      transposes_S8192x256_S256x8192_1_0))
    (broadcastInDim S256x8192 ![0, 1] bcast_S1x8192_S256x8192_0_1 (transpose S1x8192 [1, 0] mask transposes_S8192x1_S1x8192_1_0))

/-- The loss as one function of the class similarities, the divisors, the mask and the two integer arguments. -/
def loss (sim : FVec Ideal S8192x256 .f32) (cs mask : FVec Ideal S8192x1 .f32) (x2 : IVec S256 32) (x3 : IVec S65536 32) :
    FVec Ideal S_ .f32 :=
  Host.negf (Host.divf (Host.reduceAdd (Host.gather gather_S256x8192_S256x2_S256_n_01_n_n_01_1_11
      (Host.log (addf (Host.divf (maskedExp sim cs mask)
        (broadcastInDim S256x8192 ![0, 1] bcast_S256x1_S256x8192_0_1
          (addf (broadcastInDim S256x1 ![0] bcast_S256_S256x1_0
              (Host.reduceAdd (maskedExp sim cs mask) (val_main_cst_6 (F := Ideal)) reducesTo_S256x8192_S256_d1 h_S_))
            (val_main_v34 (F := Ideal)))))
        (val_main_v45 (F := Ideal))))
      (val_main_v61 (F := Ideal) x2 x3))
    (val_main_cst_14 (F := Ideal)) reducesTo_S256_S_d0 h_S_) (val_main_cst_15 (F := Ideal)))

/-- The reference's result is the shared chain applied to its own similarities, divisors and mask. -/
theorem ref_eq_loss (x0 : FVec Ideal S256x256 .f32) (x1 : FVec Ideal S65536x256 .f32) (x2 : IVec S256 32) (x3 : IVec S65536 32) :
    val_main_v65 (F := Ideal) x0 x1 x2 x3
      = loss (val_main_v12 (F := Ideal) x0 x1 x3) (val_main_v24 (F := Ideal) x3) (val_main_v20 (F := Ideal) x3) x2 x3 := rfl

end Cert.Shared

end
-- ==== Proof.LibIsReal.lean ====
/-
  "This extended real is a real number", and what keeps it so.

  Distributing a product over a sum, cancelling, moving a factor across a sum: these laws of the reals fail
  at the infinities, so a proof that uses one first shows that the values involved are real.  The property
  is closed under sums, products, finite sums, maxima and minima, quotients by a nonzero real and the
  exponential; and the hyperbolic tangent of ANY extended real is real (it is -1 and 1 at the infinities),
  which is why a network whose layers end in tanh keeps finite values whatever it is fed.
-/
import Idealize.ShloMosaic.PureOps.Ideal
import Mathlib.Algebra.BigOperators.Fin

open Idealize.ShloMosaic

namespace Cert.Proof.LibIsReal

/-- The extended real `x` is (the coercion of) a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

theorem IsReal.sub {x y : EReal} (hx : IsReal x) (hy : IsReal y) : IsReal (x - y) := by
  obtain ⟨a, rfl⟩ := hx; obtain ⟨b, rfl⟩ := hy
  exact ⟨a - b, (EReal.coe_sub a b).symm⟩

theorem IsReal.max {x y : EReal} (hx : IsReal x) (hy : IsReal y) : IsReal (max x y) := by
  rcases max_choice x y with h | h <;> rw [h] <;> assumption

theorem IsReal.min {x y : EReal} (hx : IsReal x) (hy : IsReal y) : IsReal (min x y) := by
  rcases min_choice x y with h | h <;> rw [h] <;> assumption

/-- A finite sum of reals is real. -/
theorem isReal_sum {ι : Type*} (S : Finset ι) (f : ι → EReal) (h : ∀ i ∈ S, IsReal (f i)) : IsReal (∑ i ∈ S, f i) := by
  classical
  induction S using Finset.induction_on with
  | empty => simpa using isReal_zero
  | insert a S ha ih =>
    rw [Finset.sum_insert ha]
    exact (h a (Finset.mem_insert_self a S)).add (ih fun i hi => h i (Finset.mem_insert_of_mem hi))

/-- The hyperbolic tangent of any extended real is real. -/
theorem isReal_tanh (x : EReal) : IsReal (Ideal.tanh x) := by
  induction x using EReal.rec with
  | bot => exact ⟨-1, by rw [Ideal.tanh_bot, EReal.coe_neg, EReal.coe_one]⟩
  | coe r => exact ⟨Real.tanh r, rfl⟩
  | top => exact ⟨1, by rw [Ideal.tanh_top, EReal.coe_one]⟩

theorem IsReal.exp {x : EReal} (hx : IsReal x) : IsReal (Ideal.exp x) := by
  obtain ⟨a, rfl⟩ := hx
  exact ⟨Real.exp a, rfl⟩

/-- A quotient of a real by a nonzero real is real. -/
theorem IsReal.div {x : EReal} (hx : IsReal x) {d : ℝ} (hd : d ≠ 0) : IsReal (Ideal.div x (d : EReal)) := by
  rw [Ideal.div_coe hd]
  exact hx.mul (isReal_coe _)

/-- A real is neither infinity. -/
theorem IsReal.ne_top {x : EReal} (hx : IsReal x) : x ≠ ⊤ := by
  obtain ⟨a, rfl⟩ := hx; exact EReal.coe_ne_top a

theorem IsReal.ne_bot {x : EReal} (hx : IsReal x) : x ≠ ⊥ := by
  obtain ⟨a, rfl⟩ := hx; exact EReal.coe_ne_bot a

/-- … and conversely. -/
theorem isReal_of_ne {x : EReal} (ht : x ≠ ⊤) (hb : x ≠ ⊥) : IsReal x :=
  ⟨x.toReal, (EReal.coe_toReal ht hb).symm⟩

/-- A whole family of reals comes with its real-valued family (for stating a law over the reals). -/
theorem exists_real_family {ι : Type*} (f : ι → EReal) (h : ∀ i, IsReal (f i)) : ∃ g : ι → ℝ, ∀ i, f i = (g i : EReal) :=
  ⟨fun i => (h i).choose, fun i => (h i).choose_spec⟩

end Cert.Proof.LibIsReal
-- ==== Proof.LibIsRealVec.lean ====
/-
  Arrays of real numbers stay arrays of real numbers under the operations the printed programs use.

  `AllReal x`: every entry of the array `x` (over the extended reals) is a real.  Closed under the
  pointwise sum, difference, product, maximum and minimum; under a contraction (a finite sum of products)
  with or without a real accumulator; under a gather (whatever the indices) and an accumulating scatter of
  real updates; under a broadcast.  The hyperbolic tangent of ANY array is an array of reals, the host's
  as the vector unit's — so after a tanh layer everything is finite again, whatever came before.
-/
import proofs.«114621_j57346403336648_2_alg».proof.Proof.LibIsReal
import Idealize.ShloMosaic.PureOps.Ideal.Laws

open Idealize.ShloMosaic

namespace Cert.Proof.LibIsReal

variable {s : Shape} {φ : FTy}

/-- Every entry of the array is a real. -/
def AllReal (x : FVec Ideal s φ) : Prop := ∀ i, IsReal (x i)

theorem AllReal.addf {x y : FVec Ideal s φ} (hx : AllReal x) (hy : AllReal y) : AllReal (addf x y) :=
  fun i => (hx i).add (hy i)

theorem AllReal.subf {x y : FVec Ideal s φ} (hx : AllReal x) (hy : AllReal y) : AllReal (subf x y) :=
  fun i => (hx i).sub (hy i)

theorem AllReal.mulf {x y : FVec Ideal s φ} (hx : AllReal x) (hy : AllReal y) : AllReal (mulf x y) :=
  fun i => (hx i).mul (hy i)

theorem AllReal.maximumf {x y : FVec Ideal s φ} (hx : AllReal x) (hy : AllReal y) : AllReal (maximumf x y) :=
  fun i => (hx i).max (hy i)

theorem AllReal.minimumf {x y : FVec Ideal s φ} (hx : AllReal x) (hy : AllReal y) : AllReal (minimumf x y) :=
  fun i => (hx i).min (hy i)

/-- The vector unit's tanh of any array. -/
theorem allReal_tanh (x : FVec Ideal s φ) : AllReal (tanh x) := fun i => isReal_tanh (x i)

/-- The host's tanh of any array. -/
theorem allReal_host_tanh (x : FVec Ideal s φ) : AllReal (Host.tanh x) := fun i => isReal_tanh (x i)

theorem AllReal.exp {x : FVec Ideal s φ} (hx : AllReal x) : AllReal (exp x) := fun i => (hx i).exp

theorem AllReal.host_exp {x : FVec Ideal s φ} (hx : AllReal x) : AllReal (Host.exp x) := fun i => (hx i).exp

/-- A host contraction of real arrays. -/
theorem AllReal.dotGeneral {sl sr so : Shape} {φ₁ φ₂ : FTy} (d : DotDims sl sr so) (prec : Option ContractPrecision)
    (sched : HostSchedule) {lhs : FVec Ideal sl φ₁} {rhs : FVec Ideal sr φ₂} (hl : AllReal lhs) (hr : AllReal rhs) :
    AllReal (FloatOps.dotGeneral d prec sched lhs rhs : FVec Ideal so .f32) := fun j => by
  rw [Ideal.dotGeneral_apply]
  exact isReal_sum _ _ fun k _ => (hl _).mul (hr _)

/-- The matrix unit's product of real arrays onto a real accumulator. -/
theorem AllReal.matmul {sl sr so : Shape} {φ₁ φ₂ : FTy} (d : DotDims sl sr so) (prec : Option ContractPrecision)
    {lhs : FVec Ideal sl φ₁} {rhs : FVec Ideal sr φ₂} {acc : FVec Ideal so .f32}
    (hl : AllReal lhs) (hr : AllReal rhs) (ha : AllReal acc) :
    AllReal (FloatOps.matmul d prec lhs rhs acc : FVec Ideal so .f32) := fun j => by
  rw [Ideal.matmul_apply]
  exact (ha j).add (isReal_sum _ _ fun k _ => (hl _).mul (hr _))

/-- A gather reads entries of the operand: real whatever the indices are. -/
theorem AllReal.gather {si t : Shape} {w : Nat} (d : GatherDims s si t) {x : FVec Ideal s φ} (hx : AllReal x)
    (idx : IVec si w) : AllReal (Host.gather d x idx : FVec Ideal t φ) := fun _ => hx _

/-- An accumulating scatter of real updates into a real operand. -/
theorem AllReal.scatterAdd {si u : Shape} {w : Nat} (d : ScatterDims s si u) {x : FVec Ideal s φ} {upd : FVec Ideal u φ}
    (hx : AllReal x) (hu : AllReal upd) (idx : IVec si w) : AllReal (Host.scatterAdd (F := Ideal) d x idx upd) := fun i => by
  show IsReal (Ideal.hostScatterAdd d x idx upd i)
  unfold Ideal.hostScatterAdd
  exact (hx i).add (isReal_sum _ _ fun j _ => hu j)

/-- A broadcast repeats entries. -/
theorem AllReal.broadcastInDim {t : Shape} (dims : Fin s.rank → Fin t.rank) (h : s.BroadcastsInDim t dims)
    {x : FVec Ideal s φ} (hx : AllReal x) : AllReal (broadcastInDim t dims h x : FVec Ideal t φ) := fun _ => hx _

end Cert.Proof.LibIsReal
-- ==== Proof.LibPreDecode.lean ====
/-
  The element facts behind a precondition of the form "every float input finite, every integer input in
  its range".

  The precondition is printed as a conjunction of reductions `all (…)`; once a reduction is opened (the
  library's law for an all-reduce) one is left with a fact about ONE element: for a float, that its
  absolute value compares below the word of +infinity — which says exactly that it is a real number —; for
  an integer, that the conjunction of two signed compares holds — which bounds it, as a signed number and,
  when the lower bound is not negative, as a natural number.
-/
import proofs.«114621_j57346403336648_2_alg».proof.Proof.LibIsReal
import Idealize.ShloMosaic.Lib.Affine
import Idealize.ShloMosaic.Lib.ReduceAll
import proofs.«114621_j57346403336648_2_alg».proof.Proof.LibIsRealVec

open Idealize.ShloMosaic

namespace Cert.Proof.LibPreDecode

open LibIsReal

/-- The word of +infinity. -/
theorem ofBits_inf : Ideal.ofBits .f32 0x7F800000#32 = ⊤ := by simp [Ideal.ofBits, Ideal.ieee]

/-- The one-bit word of a decided proposition is `1` exactly when the proposition holds. -/
theorem ofBool_decide_eq_one (p : Prop) [Decidable p] : BitVec.ofBool (decide p) = 1#1 ↔ p := by
  by_cases h : p <;> simp [h]

/-- `|x| < +inf` holds exactly of the real numbers. -/
theorem abs_lt_inf_iff (x : EReal) :
    Ideal.cmp .olt (max x (-x)) (Ideal.ofBits .f32 0x7F800000#32) = 1#1 ↔ IsReal x := by
  rw [ofBits_inf]
  show BitVec.ofBool (decide (max x (-x) < ⊤)) = 1#1 ↔ IsReal x
  rw [ofBool_decide_eq_one]
  induction x using EReal.rec with
  | bot =>
    rw [EReal.neg_bot, max_eq_right bot_le]
    exact ⟨fun h => absurd h (lt_irrefl _), fun h => absurd rfl h.ne_bot⟩
  | coe r =>
    refine ⟨fun _ => isReal_coe r, fun _ => ?_⟩
    exact max_lt (EReal.coe_lt_top r) (by rw [← EReal.coe_neg]; exact EReal.coe_lt_top _)
  | top =>
    rw [max_eq_left le_top]
    exact ⟨fun h => absurd h (lt_irrefl _), fun h => absurd rfl h.ne_top⟩

/-- The two signed compares of a range check, together, bound the word as a signed number. -/
theorem range_iff (a lo hi : BitVec 32) :
    IntOp.andi (IntOp.cmpi .sge a lo) (IntOp.cmpi .sle a hi) = 1#1 ↔ lo.toInt ≤ a.toInt ∧ a.toInt ≤ hi.toInt :=
  IntOp.andi_eq_one.trans (and_congr IntOp.cmpi_sge IntOp.cmpi_sle)

/-- A word that is not negative as a signed number and at most `N` is at most `N` as a natural number:
    what an indexed access asks of its index. -/
theorem toNat_le_of_range (a : BitVec 32) (N : ℕ) (h0 : 0 ≤ a.toInt) (h1 : a.toInt ≤ (N : ℤ)) : a.toNat ≤ N := by
  rw [BitVec.toInt_eq_toNat_cond] at h0 h1
  split at h0 <;> omega

/-! ## The two kinds of conjunct, for a whole array of any shape -/

/-- The result shape of an all-reduce to a scalar has one index. -/
instance subsingleton_scalar_idx : Subsingleton (⟨0, ![]⟩ : Shape).Idx := ⟨fun _ _ => funext fun d => d.elim0⟩

section Whole

variable {s : Shape} {axes : List (Fin s.rank)}

/-- `all (|x| < +inf)` says every entry of `x` is real. -/
theorem allReal_of_all_finite (x : FVec Ideal s .f32) (inf : FVec Ideal s .f32)
    (hinf : ∀ i, inf i = Ideal.ofBits .f32 0x7F800000#32) (init : IVec ⟨0, ![]⟩ 1)
    (h : s.ReducesTo axes ⟨0, ![]⟩) (hu : 0 < (⟨0, ![]⟩ : Shape).numel) (j : (⟨0, ![]⟩ : Shape).Idx)
    (e : Host.reduce IntOp.andi (cmpf .olt (Host.absf x) inf) init h hu j = 1#1) : AllReal x := fun i => by
  have hi := Host.reduce_andi_all (cmpf .olt (Host.absf x) inf) init h hu j e i
  have : Ideal.cmp .olt (max (x i) (-(x i))) (Ideal.ofBits .f32 0x7F800000#32) = 1#1 := by
    rw [← hinf i]; exact hi
  exact (abs_lt_inf_iff (x i)).mp this

/-- `all (lo ≤ x ∧ x ≤ hi)` bounds every entry of `x` as a signed number. -/
theorem range_of_all (x lo hi : IVec s 32) (init : IVec ⟨0, ![]⟩ 1)
    (h : s.ReducesTo axes ⟨0, ![]⟩) (hu : 0 < (⟨0, ![]⟩ : Shape).numel) (j : (⟨0, ![]⟩ : Shape).Idx)
    (e : Host.reduce IntOp.andi (andi (cmpi .sge x lo) (cmpi .sle x hi)) init h hu j = 1#1) (i : s.Idx) :
    (lo i).toInt ≤ (x i).toInt ∧ (x i).toInt ≤ (hi i).toInt :=
  (range_iff (x i) (lo i) (hi i)).mp (Host.reduce_andi_all (andi (cmpi .sge x lo) (cmpi .sle x hi)) init h hu j e i)

end Whole

end Cert.Proof.LibPreDecode
-- ==== Proof.Consts.lean ====
/-
  The float words this certificate's two programs spell, as the extended reals they denote.

  * the zero word is `0`;
  * the reference's temperature word `0x3D4CCCCD` (the float nearest to 0.05) is the rational
    `13421773 / 268435456` exactly — its reciprocal `268435456 / 13421773` is the value the kernel's
    scale constant is named;
  * the normalisation guard `0x2B8CBCCC` (the float nearest to 1e-12) is a positive real.
-/
import Idealize.ShloMosaic.PureOps.Ideal

noncomputable section

namespace Cert.Consts

open Idealize.ShloMosaic

/-- `+0.0` denotes `0`. -/
theorem ofBits_zero : Ideal.ofBits .f32 0x00000000#32 = 0 := by
  simp [Ideal.ofBits, Ideal.ieee]

/-- The temperature word: `(2^23 + 5033165) · 2^(122 - 127 - 23) = 13421773 / 2^28`. -/
theorem ofBits_temp : Ideal.ofBits .f32 0x3D4CCCCD#32 = ((13421773 / 268435456 : ℝ) : EReal) := by
  simp [Ideal.ofBits, Ideal.ieee, -EReal.coe_mul]; norm_num

/-- The temperature is not zero. -/
theorem temp_ne_zero : (13421773 / 268435456 : ℝ) ≠ 0 := by norm_num

/-- The reciprocal of the temperature, as the kernel's scale constant is named. -/
theorem inv_temp : (1 / (13421773 / 268435456 : ℝ)) = (268435456 / 13421773 : ℝ) := by norm_num

/-- The guard word is a positive real. -/
theorem ofBits_guard : ∃ ε : ℝ, 0 < ε ∧ Ideal.ofBits .f32 0x2B8CBCCC#32 = (ε : EReal) := by
  refine ⟨9223372 * (2 : ℝ) ^ (-63 : ℤ), by positivity, ?_⟩
  simp [Ideal.ofBits, Ideal.ieee, -EReal.coe_mul]

end Cert.Consts

end
-- ==== Proof.Finite.lean ====
/-
  What the precondition gives, and what survives the normalisation.

  The precondition says that every entry of the two float arguments compares below +infinity in absolute value,
  which holds exactly of the real numbers.  The programs first normalise the rows of `inputs`:
  `x = inputs / max(‖row‖, ε)` with `ε` a positive real.  Whatever the row's norm evaluates to, `max(·, ε)` is
  either a positive real or +infinity, and a real divided by either is a real (by +infinity it is `0`).  So the
  normalised array is an array of reals, and the distributive law may be used on it.
-/
import proofs.«114621_j57346403336648_2_alg».proof.Pre_finite_inputs
import proofs.«114621_j57346403336648_2_alg».proof.Proof.RefRead
import proofs.«114621_j57346403336648_2_alg».proof.Proof.LibPreDecode
import proofs.«114621_j57346403336648_2_alg».proof.Proof.Consts

noncomputable section

namespace Cert.Finite

open Idealize.ShloMosaic Cert.Proof.LibIsReal Cert.Proof.LibPreDecode

/-- The precondition, opened: both float arguments are arrays of reals. -/
theorem allReal_of_pre [Cert.Pre_finite_inputs.Facts]
    (x0 : FVec Ideal Cert.Pre_finite_inputs.S256x256 .f32) (x1 : FVec Ideal Cert.Pre_finite_inputs.S65536x256 .f32)
    (x2 : IVec Cert.Pre_finite_inputs.S256 32) (x3 : IVec Cert.Pre_finite_inputs.S65536 32)
    (h : Cert.Pre_finite_inputs.fn (F := Ideal) x0 x1 x2 x3 = fun _ => 1#1) : AllReal x0 ∧ AllReal x1 := by
  have h0 := congrFun h ValueIdx.ix0
  dsimp only [Cert.Pre_finite_inputs.fn] at h0
  obtain ⟨ha, hb⟩ := IntOp.andi_eq_one.mp h0
  exact ⟨allReal_of_all_finite x0 _ (fun _ => rfl) _ _ _ _ ha, allReal_of_all_finite x1 _ (fun _ => rfl) _ _ _ _ hb⟩

/-- A real divided by `max s ε`, `ε` a positive real, is a real whatever `s` is. -/
theorem isReal_div_max {x : EReal} (hx : IsReal x) (s : EReal) {ε : ℝ} (hε : 0 < ε) :
    IsReal (Ideal.div x (max s (ε : EReal))) := by
  have hle : (ε : EReal) ≤ max s (ε : EReal) := le_max_right _ _
  generalize max s (ε : EReal) = d at hle ⊢
  induction d using EReal.rec with
  | bot => exact absurd hle (not_le.mpr (EReal.bot_lt_coe ε))
  | coe r =>
    have hr : ε ≤ r := EReal.coe_le_coe_iff.mp hle
    exact hx.div (ne_of_gt (lt_of_lt_of_le hε hr))
  | top =>
    obtain ⟨a, rfl⟩ := hx
    refine ⟨0, ?_⟩
    unfold Ideal.div
    rw [if_neg EReal.top_ne_zero, EReal.inv_top, mul_zero, EReal.coe_zero]

open Cert.ReferenceIdeal Cert.ReferenceIdeal.ReadP in
/-- The normalised rows of a real array are real. -/
theorem allReal_normalized [Cert.ReferenceIdeal.Facts] (x0 : FVec Ideal Cert.ReferenceIdeal.S256x256 .f32) (h0 : AllReal x0) :
    AllReal (s := Cert.ReferenceIdeal.S256x256) (φ := .f32) (val_main_v4 (F := Ideal) x0) := fun i => by
  obtain ⟨ε, hε, he⟩ := Cert.Consts.ofBits_guard
  rw [val_main_v4_apply, val_main_v3_apply, val_main_v2_apply, val_main_v1_apply, val_main_cst_apply]
  simp only [Ideal.hostDivf_def, Ideal.maximumf_def, Ideal.ofBits_def, he]
  exact isReal_div_max (h0 i) _ hε

end Cert.Finite

end
-- ==== Proof.LibMatmulEntry.lean ====
/-
  A `tpu.matmul` of two rank-2 operands into the zero accumulator, read at ONE ENTRY of its result at the ideal values,
  as a plain sum over `Fin K` of the two operands' entries — for the two layouts a dense layer meets:

  * `matmul_rows_cols`: `[M, K] × [K, N] → [M, N]`, contracting the left operand's axis 1 with the right operand's
    axis 0 (rows times columns): entry `(p, q)` is `Σ_k a[p, k] · b[k, q]`;
  * `matmul_cols_rows`: `[K, N] × [M, K] → [N, M]`, contracting the left operand's axis 0 with the right operand's
    axis 1 (both operands transposed): entry `(q, p)` is `Σ_k a[k, q] · b[p, k]`.

  Each is stated for ANY dimension-number record with those six lists, whatever its name and well-formedness proof, and
  for any extents and operand formats. The contraction's own index type is re-indexed to `Fin K` through its one
  coordinate; on an axis that is not contracted an operand's index is the result index's coordinate, which is what the
  two small lemmas on `DotDims.lhsIdx` / `rhsIdx` say.
-/
import Idealize.ShloMosaic.PureOps.Ideal.Laws
import Idealize.ShloMosaic.Lib.ValueIdx

noncomputable section

open scoped BigOperators

namespace Idealize.ShloMosaic.DotDims

variable {sl sr so : Shape} (d : DotDims sl sr so)

/-- On a left axis that is kept (not batch, not contracted) the left operand's index is the result index's coordinate at
    that axis's position among the result's axes. -/
theorem lhsIdx_val_of_kept {a : Fin sl.rank} (hb : a ∉ d.lhsBatch) (hn : a ∈ d.lhsNonContracting) (j : so.Idx)
    (k : d.contr.Idx) (p : Nat) (hp : p < so.rank) (hpe : d.lhsBatch.length + d.lhsNonContracting.idxOf a = p) :
    (d.lhsIdx j k a).val = (j ⟨p, hp⟩).val := by
  subst hpe
  unfold lhsIdx
  rw [dif_neg hb, dif_pos hn]
  rfl

/-- The same for the right operand, whose kept axes come after the left operand's among the result's. -/
theorem rhsIdx_val_of_kept {a : Fin sr.rank} (hb : a ∉ d.rhsBatch) (hn : a ∈ d.rhsNonContracting) (j : so.Idx)
    (k : d.contr.Idx) (p : Nat) (hp : p < so.rank)
    (hpe : d.lhsBatch.length + d.lhsNonContracting.length + d.rhsNonContracting.idxOf a = p) :
    (d.rhsIdx j k a).val = (j ⟨p, hp⟩).val := by
  subst hpe
  unfold rhsIdx
  rw [dif_neg hb, dif_pos hn]
  rfl

end Idealize.ShloMosaic.DotDims

namespace Idealize.ShloMosaic.Ideal

open Idealize.ShloMosaic.ValueIdx

/-- Rows times columns: `[M, K] × [K, N] → [M, N]` into the zero accumulator, at entry `(p, q)`. -/
theorem matmul_rows_cols {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (a : FVec Ideal ⟨2, ![M, K]⟩ φ₁) (b : FVec Ideal ⟨2, ![K, N]⟩ φ₂)
    (p : Fin M) (q : Fin N) :
    FloatOps.matmul D prec a b (constant ⟨2, ![M, N]⟩ .f32 0x00000000#32) (ix2 p q)
      = ∑ k : Fin K, a (ix2 p k) * b (ix2 k q) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [matmul_constant_zero_apply, ← Equiv.sum_comp (contrEquiv1 D K hr hs).symm]
  refine Finset.sum_congr rfl fun k _ => ?_
  have ea : D.lhsIdx (ix2 p q) ((contrEquiv1 D K hr hs).symm k) = ix2 p k := by
    funext ax
    refine Fin.ext ?_
    match ax with
    | ⟨0, _⟩ =>
      exact D.lhsIdx_val_of_kept (a := (0 : Fin 2)) (by rw [hlb]; exact List.not_mem_nil) (by rw [hln]; exact List.mem_singleton.mpr rfl)
        _ _ 0 Nat.zero_lt_two (by rw [hlb, hln]; rfl)
    | ⟨1, _⟩ =>
      exact (D.lhsIdx_val_of_single (cl := (1 : Fin 2)) hlc _ _).trans (contrEquiv1_symm_val D K hr hs k)
  have eb : D.rhsIdx (ix2 p q) ((contrEquiv1 D K hr hs).symm k) = ix2 k q := by
    funext ax
    refine Fin.ext ?_
    match ax with
    | ⟨0, _⟩ =>
      exact (D.rhsIdx_val_of_single (cr := (0 : Fin 2)) hrc _ _).trans (contrEquiv1_symm_val D K hr hs k)
    | ⟨1, _⟩ =>
      exact D.rhsIdx_val_of_kept (a := (1 : Fin 2)) (by rw [hrb]; exact List.not_mem_nil) (by rw [hrn]; exact List.mem_singleton.mpr rfl)
        _ _ 1 Nat.one_lt_two (by rw [hlb, hln, hrn]; rfl)
  rw [ea, eb]

/-- Both operands transposed: `[K, N] × [M, K] → [N, M]` into the zero accumulator, at entry `(q, p)`. -/
theorem matmul_cols_rows {M K N : Nat} {φ₁ φ₂ : FTy} (D : DotDims ⟨2, ![K, N]⟩ ⟨2, ![M, K]⟩ ⟨2, ![N, M]⟩)
    (hlb : D.lhsBatch = []) (hln : D.lhsNonContracting = [1]) (hlc : D.lhsContracting = [0])
    (hrb : D.rhsBatch = []) (hrn : D.rhsNonContracting = [0]) (hrc : D.rhsContracting = [1])
    (prec : Option ContractPrecision) (a : FVec Ideal ⟨2, ![K, N]⟩ φ₁) (b : FVec Ideal ⟨2, ![M, K]⟩ φ₂)
    (q : Fin N) (p : Fin M) :
    FloatOps.matmul D prec a b (constant ⟨2, ![N, M]⟩ .f32 0x00000000#32) (ix2 q p)
      = ∑ k : Fin K, a (ix2 k q) * b (ix2 p k) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [matmul_constant_zero_apply, ← Equiv.sum_comp (contrEquiv1 D K hr hs).symm]
  refine Finset.sum_congr rfl fun k _ => ?_
  have ea : D.lhsIdx (ix2 q p) ((contrEquiv1 D K hr hs).symm k) = ix2 k q := by
    funext ax
    refine Fin.ext ?_
    match ax with
    | ⟨0, _⟩ =>
      exact (D.lhsIdx_val_of_single (cl := (0 : Fin 2)) hlc _ _).trans (contrEquiv1_symm_val D K hr hs k)
    | ⟨1, _⟩ =>
      exact D.lhsIdx_val_of_kept (a := (1 : Fin 2)) (by rw [hlb]; exact List.not_mem_nil) (by rw [hln]; exact List.mem_singleton.mpr rfl)
        _ _ 0 Nat.zero_lt_two (by rw [hlb, hln]; rfl)
  have eb : D.rhsIdx (ix2 q p) ((contrEquiv1 D K hr hs).symm k) = ix2 p k := by
    funext ax
    refine Fin.ext ?_
    match ax with
    | ⟨0, _⟩ =>
      exact D.rhsIdx_val_of_kept (a := (0 : Fin 2)) (by rw [hrb]; exact List.not_mem_nil) (by rw [hrn]; exact List.mem_singleton.mpr rfl)
        _ _ 1 Nat.one_lt_two (by rw [hlb, hln, hrn]; rfl)
    | ⟨1, _⟩ =>
      exact (D.rhsIdx_val_of_single (cr := (1 : Fin 2)) hrc _ _).trans (contrEquiv1_symm_val D K hr hs k)
  rw [ea, eb]

end Idealize.ShloMosaic.Ideal

end
-- ==== Proof.KernelBlock.lean ====
/-
  What one grid point of the kernel computes, entry by entry.

  The body loads a block `a` of 2048 class rows (each a 256-vector of summed features) and the whole matrix `b` of
  transposed normalised inputs, multiplies them on the matrix unit into a zero accumulator, and scales the product
  by the constant the certificate names `inv_temp`, which denotes `268435456 / 13421773` (the reciprocal of the
  reference's temperature word).  At the ideal values entry `(p, q)` of what it stores is therefore

      (Σ_k a[p, k] · b[k, q]) · (268435456 / 13421773).
-/
import proofs.«114621_j57346403336648_2_alg».proof.Proof.Gen.KernelIdeal.Skeleton
import proofs.«114621_j57346403336648_2_alg».proof.Proof.LibMatmulEntry
import Idealize.ShloMosaic.PureOps.IdealRules
import Idealize.ShloMosaic.Lib.Pipeline.Value
import Idealize.ShloMosaic.Lib.ValueIdx

noncomputable section

namespace Cert.KernelIdeal.BlockValue

open Cert.KernelIdeal Cert.KernelIdeal.Gen Idealize.ShloMosaic Idealize.ShloMosaic.ValueIdx

/-- The scale: the reciprocal of the temperature, as an extended real. -/
abbrev scale : EReal := ((268435456 / 13421773 : ℝ) : EReal)

/-- The named constant denotes the scale, by the certificate's table. -/
theorem named_scale : Named.named (F := Ideal) Cert.KernelIdeal.κ "inv_temp" (φ := .f32) 0x41A00000#32 = scale :=
  IdealRules.named_const.ideal_named_scalar _ _ _ _ rfl

/-- The scaled matrix product of a table `A` of 8192 rows by a 256-by-256 matrix `B`, entry by entry. -/
def scaledProduct (A : S8192x256.Idx → EReal) (B : S256x256.Idx → EReal) : S8192x256.Idx → EReal := fun i =>
  (∑ k : Fin 256, A (ix2 (⟨(i 0).val, idx2_lt0 i⟩ : Fin 8192) k) * B (ix2 k (⟨(i 1).val, idx2_lt1 i⟩ : Fin 256))) * scale

/-- Entry `(p, q)` of the body's stored value. -/
theorem pay_apply (a : FVec Ideal S2048x256 .f32) (b : FVec Ideal S256x256 .f32) (p : Fin 2048) (q : Fin 256) :
    k0_pay1 (F := Ideal) a b (ix2 p q) = (∑ k : Fin 256, a (ix2 p k) * b (ix2 k q)) * scale := by
  show mulf (matmul dot_S2048x256_S256x256_S2048x256_1_0_0_1_n_n (some .fp32)
        (shapeCast S2048x256 a shapeCasts_S2048x256_S2048x256) (shapeCast S256x256 b shapeCasts_S256x256_S256x256)
        (constant S2048x256 .f32 0x00000000#32))
      (broadcast S2048x256 (Named.named Cert.KernelIdeal.κ "inv_temp" 0x41A00000#32)) (ix2 p q) = _
  rw [shapeCast_self a, shapeCast_self b]
  refine (mulf_apply _ _ _).trans ?_
  rw [broadcast_apply, named_scale]
  exact congrArg (· * scale)
    (Ideal.matmul_rows_cols dot_S2048x256_S256x256_S2048x256_1_0_0_1_n_n rfl rfl rfl rfl rfl rfl (some .fp32) a b p q)

end Cert.KernelIdeal.BlockValue

end
-- ==== Proof.KernelHost.lean ====
/-
  The kernel program's host lines, read back.

  Before the region the host lines compute, from the four arguments: the normalised inputs transposed (the
  region's second operand), the class sums of the feature rows (its first operand), the 0/1 mask of non-empty
  classes and the per-class divisors.  After the region they apply the shared chain (`Shared.loss`) to the region's
  result.  Each statement is over an ARBITRARY valuation of the buffers, so nothing here ever looks inside an
  array: the same operations in the same order are the reference's stages, up to the two programs' own names for
  the same dimension records.
-/
import proofs.«114621_j57346403336648_2_alg».proof.Proof.Gen.KernelIdeal.Launch
import proofs.«114621_j57346403336648_2_alg».proof.Proof.Shared
import Idealize.ShloMosaic.Lib.StableHlo.Run

noncomputable section

namespace Cert.KernelIdeal.HostValue

open Cert.KernelIdeal Cert.KernelIdeal.Gen Idealize.ShloMosaic Idealize.ShloMosaic.StableHlo

/-- The class sums of the feature rows, as the reference's records spell the same scatter. -/
def classSums (x1 : FVec Ideal Cert.ReferenceIdeal.S65536x256 .f32) (x3 : IVec Cert.ReferenceIdeal.S65536 32) :
    FVec Ideal Cert.ReferenceIdeal.S8192x256 .f32 :=
  Host.scatterAdd Cert.ReferenceIdeal.scatter_S8192x256_S65536x1_S65536x256_1_0_0_1
    (Cert.ReferenceIdeal.ReadP.val_main_v10 (F := Ideal)) (Cert.ReferenceIdeal.ReadP.val_main_v11 (F := Ideal) x3) x1

/-- The normalised inputs, transposed. -/
def normT (x0 : FVec Ideal Cert.ReferenceIdeal.S256x256 .f32) : FVec Ideal S256x256 .f32 :=
  transpose S256x256 [1, 0] (Cert.ReferenceIdeal.ReadP.val_main_v4 (F := Ideal) x0) transposes_S256x256_S256x256_1_0

variable (M : Valuation τ sig (Elt Ideal))

/-- The region's first operand: the class sums. -/
theorem pre_classSums :
    StableHlo.after (List.flatten [hostOps0, hostOps0_1]) M (Proc.devRef .tc main_v8)
      = classSums (M (Proc.devRef .tc main_arg1)) (M (Proc.devRef .tc main_arg3)) := by
  simp only [hostOps0, hostOps0_1, List.flatten_cons, List.flatten_nil, List.append_nil, List.cons_append, List.nil_append]
  after_results_simp
  rfl

/-- The region's second operand: the normalised inputs, transposed. -/
theorem pre_normT :
    StableHlo.after (List.flatten [hostOps0, hostOps0_1]) M (Proc.devRef .tc main_v5)
      = normT (M (Proc.devRef .tc main_arg0)) := by
  simp only [hostOps0, hostOps0_1, List.flatten_cons, List.flatten_nil, List.append_nil, List.cons_append, List.nil_append]
  after_results_simp
  rfl

/-- The mask of non-empty classes. -/
theorem pre_mask :
    StableHlo.after (List.flatten [hostOps0, hostOps0_1]) M (Proc.devRef .tc main_v16)
      = Cert.ReferenceIdeal.ReadP.val_main_v20 (F := Ideal) (M (Proc.devRef .tc main_arg3)) := by
  simp only [hostOps0, hostOps0_1, List.flatten_cons, List.flatten_nil, List.append_nil, List.cons_append, List.nil_append]
  after_results_simp
  rfl

/-- The per-class divisors. -/
theorem pre_divisors :
    StableHlo.after (List.flatten [hostOps0, hostOps0_1]) M (Proc.devRef .tc main_v20)
      = Cert.ReferenceIdeal.ReadP.val_main_v24 (F := Ideal) (M (Proc.devRef .tc main_arg3)) := by
  simp only [hostOps0, hostOps0_1, List.flatten_cons, List.flatten_nil, List.append_nil, List.cons_append, List.nil_append]
  after_results_simp
  rfl

/-- The lines after the region are the shared chain on the region's result, the divisors, the mask and the two
    integer arguments. -/
theorem tail_loss :
    StableHlo.after hostOps1 M (Proc.devRef .tc main_v62)
      = Cert.Shared.loss (M (Proc.devRef .tc main_v21)) (M (Proc.devRef .tc main_v20)) (M (Proc.devRef .tc main_v16))
          (M (Proc.devRef .tc main_arg2)) (M (Proc.devRef .tc main_arg3)) := by
  simp only [hostOps1]
  after_results_simp
  rfl

end Cert.KernelIdeal.HostValue

end
-- ==== Proof.LibSegmentSum.lean ====
/-
  The host's accumulating scatter of rows — jax's `segment_sum` of a table of rows — read at an entry.

  Updates `upd : [E, H]` are added into an operand `x : [V, H]`, row `e` of the updates onto the row of
  the operand that `idx[e, 0]` names (read signed; a row outside the operand is dropped).  Over the
  extended reals the accumulation is the exact sum, so entry `(v, k)` of the result is `x (v, k)` plus
  the sum of `upd (e, k)` over the update rows `e` whose index is `v`.
-/
import Idealize.ShloMosaic.PureOps.Ideal
import Idealize.ShloMosaic.Lib.ValueIdx

open Idealize.ShloMosaic Idealize.ShloMosaic.ValueIdx

namespace Cert.Proof.LibSegmentSum

/-- The dimension numbers of a row scatter: the update's second axis is the window, the operand's first
    axis is the one the single index component names. -/
abbrev rowDims (V E H : Nat) (wf : ScatterDims.WF ⟨2, ![V, H]⟩ ⟨2, ![E, 1]⟩ ⟨2, ![E, H]⟩ [1] [0] [0] 1) :
    ScatterDims ⟨2, ![V, H]⟩ ⟨2, ![E, 1]⟩ ⟨2, ![E, H]⟩ where
  updateWindowDims := [1]
  insertedWindowDims := [0]
  scatterDimsToOperandDims := [0]
  indexVectorDim := 1
  wf := wf

/-- Where update row `e` reads its index. -/
abbrev segIdx {E : Nat} (e : Fin E) : (⟨2, ![E, 1]⟩ : Shape).Idx := ix2 e ⟨0, Nat.one_pos⟩

variable {V E H w : Nat} (wf : ScatterDims.WF ⟨2, ![V, H]⟩ ⟨2, ![E, 1]⟩ ⟨2, ![E, H]⟩ [1] [0] [0] 1)

theorem start_row (j : (⟨2, ![E, H]⟩ : Shape).Idx) (idx : IVec ⟨2, ![E, 1]⟩ w) :
    (rowDims V E H wf).start j idx 0 = (idx (segIdx (j 0))).toInt := by
  unfold ScatterDims.start
  rw [dif_pos (show (0 : Fin 2) ∈ (rowDims V E H wf).scatterDimsToOperandDims from List.mem_singleton.mpr rfl)]
  have hsi : (rowDims V E H wf).siIdx j ⟨List.idxOf (0 : Fin 2) (rowDims V E H wf).scatterDimsToOperandDims,
      List.idxOf_lt_length_iff.2 (List.mem_singleton.mpr rfl)⟩ = segIdx (j 0) := by
    funext b; refine Fin.ext ?_
    match b with
    | ⟨0, _⟩ => rfl
    | ⟨1, _⟩ => rfl
  rw [hsi]
  rfl

/-- The operand's axes that carry a window coordinate: only the second. -/
theorem sKept_eq : (rowDims V E H wf).sKept = [1] := by
  show (List.finRange 2).filter (fun a : Fin 2 => a ∉ ([0] : List (Fin 2))) = [1]
  decide

theorem start_col (j : (⟨2, ![E, H]⟩ : Shape).Idx) (idx : IVec ⟨2, ![E, 1]⟩ w) :
    (rowDims V E H wf).start j idx 1 = 0 := by
  unfold ScatterDims.start
  rw [dif_neg (show ¬ (1 : Fin 2) ∈ ([0] : List (Fin 2)) by decide)]

theorem window_row (j : (⟨2, ![E, H]⟩ : Shape).Idx) : (rowDims V E H wf).window j 0 = 0 := by
  unfold ScatterDims.window
  rw [dif_neg (show ¬ (0 : Fin 2) ∈ (rowDims V E H wf).sKept by
    rw [sKept_eq]; exact (show ¬ (0 : Fin 2) ∈ ([1] : List (Fin 2)) by decide))]

theorem window_col (j : (⟨2, ![E, H]⟩ : Shape).Idx) : (rowDims V E H wf).window j 1 = (j 1).val := by
  unfold ScatterDims.window
  rw [dif_pos (show (1 : Fin 2) ∈ (rowDims V E H wf).sKept by
    rw [sKept_eq]; exact (show (1 : Fin 2) ∈ ([1] : List (Fin 2)) by decide))]
  rfl

/-- The update entry `j` stays inside the operand exactly when its row's index, read signed, names a row. -/
theorem inside_iff (j : (⟨2, ![E, H]⟩ : Shape).Idx) (idx : IVec ⟨2, ![E, 1]⟩ w) :
    (∀ a, 0 ≤ (rowDims V E H wf).start j idx a + (rowDims V E H wf).window j a ∧
        (rowDims V E H wf).start j idx a + (rowDims V E H wf).window j a < (⟨2, ![V, H]⟩ : Shape).size a)
      ↔ (0 ≤ (idx (segIdx (j 0))).toInt ∧ (idx (segIdx (j 0))).toInt < V) := by
  rw [Fin.forall_fin_two, start_row, start_col, window_row, window_col]
  have := idx2_lt1 j
  show (0 ≤ _ + ((0 : ℕ) : ℤ) ∧ _ + ((0 : ℕ) : ℤ) < ((V : ℕ) : ℤ))
    ∧ (0 ≤ (0 : ℤ) + (((j 1).val : ℕ) : ℤ) ∧ (0 : ℤ) + (((j 1).val : ℕ) : ℤ) < ((H : ℕ) : ℤ)) ↔ _
  omega

/-- The update entry `j` lands on the operand entry `i` exactly when its row's index is `i`'s row and
    the two share the column. -/
theorem resultIdx?_eq_some_iff (j : (⟨2, ![E, H]⟩ : Shape).Idx) (idx : IVec ⟨2, ![E, 1]⟩ w)
    (i : (⟨2, ![V, H]⟩ : Shape).Idx) :
    (rowDims V E H wf).resultIdx? j idx = some i
      ↔ (idx (segIdx (j 0))).toInt = ((i 0).val : ℤ) ∧ (j 1).val = (i 1).val := by
  unfold ScatterDims.resultIdx?
  have hi0 := idx2_lt0 i
  by_cases hc : ∀ a, 0 ≤ (rowDims V E H wf).start j idx a + (rowDims V E H wf).window j a ∧
      (rowDims V E H wf).start j idx a + (rowDims V E H wf).window j a < (⟨2, ![V, H]⟩ : Shape).size a
  · rw [dif_pos hc]
    have hc' := (inside_iff wf j idx).mp hc
    constructor
    · intro h
      have hi := Option.some.inj h
      have h0 : ((rowDims V E H wf).start j idx 0 + (rowDims V E H wf).window j 0).toNat = (i 0).val :=
        congrArg (fun f => (f 0).val) hi
      have h1 : ((rowDims V E H wf).start j idx 1 + (rowDims V E H wf).window j 1).toNat = (i 1).val :=
        congrArg (fun f => (f 1).val) hi
      rw [start_row, window_row] at h0
      rw [start_col, window_col] at h1
      constructor <;> omega
    · rintro ⟨h0, h1⟩
      congr 1
      funext a
      refine Fin.ext ?_
      revert a
      rw [Fin.forall_fin_two]
      constructor
      · show ((rowDims V E H wf).start j idx 0 + (rowDims V E H wf).window j 0).toNat = (i 0).val
        rw [start_row, window_row]; omega
      · show ((rowDims V E H wf).start j idx 1 + (rowDims V E H wf).window j 1).toNat = (i 1).val
        rw [start_col, window_col]; omega
  · rw [dif_neg hc]
    constructor
    · intro h; exact absurd h (by simp)
    · rintro ⟨h0, _⟩
      exact absurd ((inside_iff wf j idx).mpr ⟨by omega, by omega⟩) hc

/-- An operand entry's column, as a column of the updates. -/
abbrev colOf (i : (⟨2, ![V, H]⟩ : Shape).Idx) : Fin H := ⟨(i 1).val, idx2_lt1 i⟩

/-- THE ROW SCATTER-ADD READ AT AN ENTRY: the operand's entry plus the entries, in the same column, of
    the update rows whose index names the entry's row. -/
theorem scatterAdd_rows_apply (x : (⟨2, ![V, H]⟩ : Shape).Idx → EReal) (idx : IVec ⟨2, ![E, 1]⟩ w)
    (upd : (⟨2, ![E, H]⟩ : Shape).Idx → EReal) (i : (⟨2, ![V, H]⟩ : Shape).Idx) :
    Ideal.hostScatterAdd (rowDims V E H wf) x idx upd i
      = x i + ∑ e : Fin E, if (idx (segIdx e)).toInt = ((i 0).val : ℤ) then upd (ix2 e (colOf i)) else 0 := by
  unfold Ideal.hostScatterAdd
  congr 1
  rw [Finset.sum_filter, sum_idx2]
  refine Finset.sum_congr rfl fun e _ => ?_
  by_cases hA : (idx (segIdx e)).toInt = ((i 0).val : ℤ)
  · rw [if_pos hA]
    refine (Finset.sum_eq_single (colOf i) ?_ ?_).trans ?_
    · intro k _ hk
      exact if_neg fun h => hk (Fin.ext ((resultIdx?_eq_some_iff wf (ix2 e k) idx i).mp h).2)
    · intro h; exact absurd (Finset.mem_univ _) h
    · exact if_pos ((resultIdx?_eq_some_iff wf (ix2 e (colOf i)) idx i).mpr ⟨hA, rfl⟩)
  · rw [if_neg hA]
    exact Finset.sum_eq_zero fun k _ => if_neg fun h => hA ((resultIdx?_eq_some_iff wf (ix2 e k) idx i).mp h).1

/-! ## The same for a table of scalars (`segment_sum` of a vector: a count when the updates are ones) -/

section Scalars

/-- A rank-1 index is its one coordinate. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scalar scatter: no window axis, the operand's one axis named by the index. -/
abbrev scalarDims (V E : Nat) (wf : ScatterDims.WF ⟨1, ![V]⟩ ⟨2, ![E, 1]⟩ ⟨1, ![E]⟩ [] [0] [0] 1) :
    ScatterDims ⟨1, ![V]⟩ ⟨2, ![E, 1]⟩ ⟨1, ![E]⟩ where
  updateWindowDims := []
  insertedWindowDims := [0]
  scatterDimsToOperandDims := [0]
  indexVectorDim := 1
  wf := wf

variable {V E w : Nat} (wf : ScatterDims.WF ⟨1, ![V]⟩ ⟨2, ![E, 1]⟩ ⟨1, ![E]⟩ [] [0] [0] 1)

theorem start_scalar (j : (⟨1, ![E]⟩ : Shape).Idx) (idx : IVec ⟨2, ![E, 1]⟩ w) :
    (scalarDims V E wf).start j idx 0 = (idx (segIdx (j 0))).toInt := by
  unfold ScatterDims.start
  rw [dif_pos (show (0 : Fin 1) ∈ (scalarDims V E wf).scatterDimsToOperandDims from List.mem_singleton.mpr rfl)]
  have hsi : (scalarDims V E wf).siIdx j ⟨List.idxOf (0 : Fin 1) (scalarDims V E wf).scatterDimsToOperandDims,
      List.idxOf_lt_length_iff.2 (List.mem_singleton.mpr rfl)⟩ = segIdx (j 0) := by
    funext b; refine Fin.ext ?_
    match b with
    | ⟨0, _⟩ => rfl
    | ⟨1, _⟩ => rfl
  rw [hsi]
  rfl

theorem sKept_scalar : (scalarDims V E wf).sKept = [] := by
  show (List.finRange 1).filter (fun a : Fin 1 => a ∉ ([0] : List (Fin 1))) = []
  decide

theorem window_scalar (j : (⟨1, ![E]⟩ : Shape).Idx) : (scalarDims V E wf).window j 0 = 0 := by
  unfold ScatterDims.window
  rw [dif_neg (show ¬ (0 : Fin 1) ∈ (scalarDims V E wf).sKept by rw [sKept_scalar]; exact List.not_mem_nil)]

theorem resultIdx?_scalar_iff (j : (⟨1, ![E]⟩ : Shape).Idx) (idx : IVec ⟨2, ![E, 1]⟩ w) (i : (⟨1, ![V]⟩ : Shape).Idx) :
    (scalarDims V E wf).resultIdx? j idx = some i ↔ (idx (segIdx (j 0))).toInt = ((i 0).val : ℤ) := by
  unfold ScatterDims.resultIdx?
  have hi0 : (i 0).val < V := (i 0).isLt
  have hin : (∀ a, 0 ≤ (scalarDims V E wf).start j idx a + (scalarDims V E wf).window j a ∧
        (scalarDims V E wf).start j idx a + (scalarDims V E wf).window j a < (⟨1, ![V]⟩ : Shape).size a)
      ↔ (0 ≤ (idx (segIdx (j 0))).toInt ∧ (idx (segIdx (j 0))).toInt < V) := by
    rw [Fin.forall_fin_one, start_scalar, window_scalar]
    show (0 ≤ _ + ((0 : ℕ) : ℤ) ∧ _ + ((0 : ℕ) : ℤ) < ((V : ℕ) : ℤ)) ↔ _
    omega
  by_cases hc : ∀ a, 0 ≤ (scalarDims V E wf).start j idx a + (scalarDims V E wf).window j a ∧
      (scalarDims V E wf).start j idx a + (scalarDims V E wf).window j a < (⟨1, ![V]⟩ : Shape).size a
  · rw [dif_pos hc]
    have hc' := hin.mp hc
    constructor
    · intro h
      have h0 : ((scalarDims V E wf).start j idx 0 + (scalarDims V E wf).window j 0).toNat = (i 0).val :=
        congrArg (fun f => (f 0).val) (Option.some.inj h)
      rw [start_scalar, window_scalar] at h0
      omega
    · intro h0
      congr 1
      funext a
      refine Fin.ext ?_
      revert a
      rw [Fin.forall_fin_one]
      show ((scalarDims V E wf).start j idx 0 + (scalarDims V E wf).window j 0).toNat = (i 0).val
      rw [start_scalar, window_scalar]; omega
  · rw [dif_neg hc]
    constructor
    · intro h; exact absurd h (by simp)
    · intro h0
      exact absurd (hin.mpr ⟨by omega, by omega⟩) hc

/-- THE SCALAR SCATTER-ADD READ AT AN ENTRY: the operand's entry plus the updates whose index names it. -/
theorem scatterAdd_scalars_apply (x : (⟨1, ![V]⟩ : Shape).Idx → EReal) (idx : IVec ⟨2, ![E, 1]⟩ w)
    (upd : (⟨1, ![E]⟩ : Shape).Idx → EReal) (i : (⟨1, ![V]⟩ : Shape).Idx) :
    Ideal.hostScatterAdd (scalarDims V E wf) x idx upd i
      = x i + ∑ e : Fin E, if (idx (segIdx e)).toInt = ((i 0).val : ℤ) then upd (ix1 e) else 0 := by
  unfold Ideal.hostScatterAdd
  congr 1
  rw [Finset.sum_filter, sum_idx1]
  refine Finset.sum_congr rfl fun e _ => ?_
  by_cases hA : (idx (segIdx e)).toInt = ((i 0).val : ℤ)
  · rw [if_pos hA]; exact if_pos ((resultIdx?_scalar_iff wf (ix1 e) idx i).mpr hA)
  · rw [if_neg hA]; exact if_neg fun h => hA ((resultIdx?_scalar_iff wf (ix1 e) idx i).mp h)

end Scalars

end Cert.Proof.LibSegmentSum
-- ==== Proof.SegmentLaw.lean ====
/-
  The law that joins the two programs.

  Rows `f m` (m a memory slot) are grouped into classes by a predicate `p m` ("slot m carries this class's
  label").  One program first sums the rows of a class and then takes the inner product of that sum with a
  vector `x`, scaling by `κ`; the other takes the inner product of every row with `x`, divides each by `δ`, and sums
  those quotients over the class.  With `κ = 1 / δ` the two agree, because the inner product and the scale are
  linear:

      (Σ_d (Σ_{m ∈ class} f m d) · x d) · κ  =  Σ_{m ∈ class} (Σ_d x d · f m d) / δ.

  Over the extended reals the distributive law fails at the infinities, so the law is stated for entries that ARE
  reals (coercions), which is what the finiteness precondition provides.
-/
import Idealize.ShloMosaic.PureOps.Ideal
import Mathlib.Algebra.BigOperators.Fin

noncomputable section

namespace Cert.SegmentLaw

open Idealize.ShloMosaic

/-- The coercion of a finite sum of reals is the sum of the coercions. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A guarded real, coerced. -/
theorem coe_ite (p : Prop) [Decidable p] (r : ℝ) :
    (if p then (r : EReal) else 0) = ((if p then r else 0 : ℝ) : EReal) := by
  split_ifs
  · rfl
  · exact EReal.coe_zero.symm

/-- The law over the reals: linearity of the inner product and of the scale. -/
theorem real_law {M D : ℕ} (f : Fin M → Fin D → ℝ) (x : Fin D → ℝ) (p : Fin M → Prop) [DecidablePred p] (κ : ℝ) :
    (∑ d, (∑ m, if p m then f m d else 0) * x d) * κ = ∑ m, if p m then (∑ d, x d * f m d) * κ else 0 := by
  simp only [Finset.sum_mul]
  rw [Finset.sum_comm]
  refine Finset.sum_congr rfl fun m _ => ?_
  by_cases h : p m
  · simp only [if_pos h]
    exact Finset.sum_congr rfl fun d _ => by ring
  · simp only [if_neg h, zero_mul, Finset.sum_const_zero]

/-- The law over the extended reals, for real entries: the class sums start from `0`, the quotient is the
    extended reals' (by a nonzero real it is the product with the reciprocal). -/
theorem ereal_law {M D : ℕ} (f : Fin M → Fin D → ℝ) (x : Fin D → ℝ) (p : Fin M → Prop) [DecidablePred p]
    (κ δ : ℝ) (hδ : δ ≠ 0) (hκ : 1 / δ = κ) :
    (∑ d, ((0 : EReal) + ∑ m, if p m then ((f m d : ℝ) : EReal) else 0) * ((x d : ℝ) : EReal)) * ((κ : ℝ) : EReal)
      = (0 : EReal) + ∑ m, if p m then Ideal.div (∑ d, ((x d : ℝ) : EReal) * ((f m d : ℝ) : EReal)) ((δ : ℝ) : EReal) else 0 := by
  have hL : ∀ d, ((0 : EReal) + ∑ m, if p m then ((f m d : ℝ) : EReal) else 0) * ((x d : ℝ) : EReal)
      = (((∑ m, if p m then f m d else 0) * x d : ℝ) : EReal) := fun d => by
    rw [zero_add, EReal.coe_mul, coe_sum]
    exact congrArg (· * ((x d : ℝ) : EReal)) (Finset.sum_congr rfl fun m _ => coe_ite _ _)
  have hR : ∀ m, (if p m then Ideal.div (∑ d, ((x d : ℝ) : EReal) * ((f m d : ℝ) : EReal)) ((δ : ℝ) : EReal) else 0)
      = ((if p m then (∑ d, x d * f m d) * κ else 0 : ℝ) : EReal) := fun m => by
    rw [← coe_ite]
    refine if_congr Iff.rfl ?_ rfl
    rw [Ideal.div_coe hδ, hκ, EReal.coe_mul, coe_sum]
    exact congrArg (· * ((κ : ℝ) : EReal)) (Finset.sum_congr rfl fun d _ => (EReal.coe_mul _ _).symm)
  rw [zero_add, Finset.sum_congr rfl fun d _ => hL d, Finset.sum_congr rfl fun m _ => hR m,
    ← coe_sum, ← coe_sum, ← EReal.coe_mul]
  exact congrArg _ (real_law f x p κ)

end Cert.SegmentLaw

end
-- ==== Proof.Similarities.lean ====
/-
  The two programs' class similarities are one table.

  Kernel side: the scaled product of the class sums of the feature rows with the transposed normalised inputs,
  `(Σ_k (Σ_{e : label e = c} features[e, k]) · x[b, k]) · (268435456 / 13421773)` at class `c`, batch item `b`.
  Reference side: the class sums of the transposed scores, `Σ_{e : label e = c} (Σ_k x[b, k] · features[e, k]) / τ`
  with `τ = 13421773 / 268435456` the temperature word.  A slot `e` counts for class `c` when its label, read as a
  signed number, is `c` (a label outside the table is dropped by both programs alike).  With real entries the two
  are equal by the linearity law (`SegmentLaw.ereal_law`), since the scale is the reciprocal of `τ`.
-/
import proofs.«114621_j57346403336648_2_alg».proof.Proof.RefRead
import proofs.«114621_j57346403336648_2_alg».proof.Proof.KernelBlock
import proofs.«114621_j57346403336648_2_alg».proof.Proof.KernelHost
import proofs.«114621_j57346403336648_2_alg».proof.Proof.LibSegmentSum
import proofs.«114621_j57346403336648_2_alg».proof.Proof.SegmentLaw
import proofs.«114621_j57346403336648_2_alg».proof.Proof.Finite
import Idealize.ShloMosaic.Lib.Pipeline.Value

noncomputable section

namespace Cert.Similarities

open Cert.ReferenceIdeal Cert.ReferenceIdeal.ReadP Idealize.ShloMosaic Idealize.ShloMosaic.ValueIdx
open Cert.Proof.LibIsReal Cert.Proof.LibSegmentSum
open Cert.KernelIdeal.BlockValue (scaledProduct scale)
open Cert.KernelIdeal.HostValue (classSums normT)

/-- A row scatter-add into the zero table, at entry `(c, j)`: the sum, over the slots whose label is `c`, of the
    updates' column `j`. -/
theorem scatter_zero_apply (x3 : IVec S65536 32) (upd : FVec Ideal S65536x256 .f32) (c : Fin 8192) (j : Fin 256) :
    Host.scatterAdd (F := Ideal) scatter_S8192x256_S65536x1_S65536x256_1_0_0_1 (val_main_v10 (F := Ideal))
        (val_main_v11 (F := Ideal) x3) upd (ix2 c j)
      = 0 + ∑ e : Fin 65536, if (x3 (ix1 e)).toInt = (c.val : ℤ) then upd (ix2 e j) else 0 := by
  have h11 : ∀ e : Fin 65536, val_main_v11 (F := Ideal) x3 (segIdx e) = x3 (ix1 e) := fun e =>
    (val_main_v11_apply x3 (segIdx e)).trans
      (congrArg x3 (funext fun a => Fin.ext (by match a with | ⟨0, _⟩ => rfl)))
  have h10 : val_main_v10 (F := Ideal) (ix2 c j) = 0 := by
    rw [val_main_v10_apply, val_main_cst_1_apply]
    exact Cert.Consts.ofBits_zero
  refine (scatterAdd_rows_apply (V := 8192) (E := 65536) (H := 256)
    scatter_S8192x256_S65536x1_S65536x256_1_0_0_1.wf (val_main_v10 (F := Ideal)) (val_main_v11 (F := Ideal) x3) upd (ix2 c j)).trans ?_
  rw [h10]
  refine congrArg (0 + ·) (Finset.sum_congr rfl fun e _ => ?_)
  rw [h11 e]

/-- The transposed normalised inputs at an entry. -/
theorem normT_apply (x0 : FVec Ideal S256x256 .f32) (k b : Fin 256) :
    normT x0 (ix2 k b) = val_main_v4 (F := Ideal) x0 (ix2 b k) := by
  unfold normT
  exact transpose_apply [1, 0] (val_main_v4 (F := Ideal) x0) _ (ix2 k b) (ix2 b k)
    (fun a => match a with
      | ⟨0, _⟩ => rfl
      | ⟨1, _⟩ => rfl)

/-- The reference's transposed scores at an entry: slot `e`'s inner product with batch item `b`, over the temperature. -/
theorem scoresT_apply (x0 : FVec Ideal S256x256 .f32) (x1 : FVec Ideal S65536x256 .f32) (e : Fin 65536) (b : Fin 256) :
    val_main_v9 (F := Ideal) x0 x1 (ix2 e b)
      = Ideal.div (∑ k : Fin 256, val_main_v4 (F := Ideal) x0 (ix2 b k) * x1 (ix2 e k)) ((13421773 / 268435456 : ℝ) : EReal) := by
  rw [val_main_v9_apply, val_main_v8_apply, val_main_v6_apply, val_main_v7_apply, val_main_cst_0_apply]
  simp only [Ideal.hostDivf_def, Ideal.ofBits_def, Cert.Consts.ofBits_temp]
  refine congrArg (Ideal.div · _) (Finset.sum_congr rfl fun k _ => ?_)
  rw [val_main_v5_apply]
  have e1 : lidx_main_v6 (idx_main_v9 (ix2 e b)) k = ix2 b k :=
    funext fun a => Fin.ext (by match a with | ⟨0, _⟩ => rfl | ⟨1, _⟩ => rfl)
  have e2 : idx_main_v5 (ridx_main_v6 (idx_main_v9 (ix2 e b)) k) = ix2 e k :=
    funext fun a => Fin.ext (by match a with | ⟨0, _⟩ => rfl | ⟨1, _⟩ => rfl)
  rw [e1, e2]

/-- THE BRIDGE: on real arguments the kernel's scaled product of class sums is the reference's class sums of scores. -/
theorem similarities_eq (x0 : FVec Ideal S256x256 .f32) (x1 : FVec Ideal S65536x256 .f32) (x3 : IVec S65536 32)
    (h0 : AllReal (s := S256x256) (φ := .f32) x0) (h1 : AllReal (s := S65536x256) (φ := .f32) x1) :
    scaledProduct (classSums x1 x3) (normT x0) = val_main_v12 (F := Ideal) x0 x1 x3 := by
  funext i
  obtain ⟨c, b, rfl⟩ : ∃ (c : Fin 8192) (b : Fin 256), i = ix2 c b := ⟨i 0, i 1, eq_ix2 i⟩
  have hx := Cert.Finite.allReal_normalized x0 h0
  -- the real numbers behind the entries
  let f : Fin 65536 → Fin 256 → ℝ := fun e k => (h1 (ix2 e k)).choose
  have hf : ∀ e k, x1 (ix2 e k) = ((f e k : ℝ) : EReal) := fun e k => (h1 (ix2 e k)).choose_spec
  let g : Fin 256 → ℝ := fun k => (hx (ix2 b k)).choose
  have hg : ∀ k, val_main_v4 (F := Ideal) x0 (ix2 b k) = ((g k : ℝ) : EReal) := fun k => (hx (ix2 b k)).choose_spec
  have hL : scaledProduct (classSums x1 x3) (normT x0) (ix2 c b)
      = (∑ k : Fin 256, ((0 : EReal) + ∑ e : Fin 65536,
            if (x3 (ix1 e)).toInt = (c.val : ℤ) then ((f e k : ℝ) : EReal) else 0) * ((g k : ℝ) : EReal)) * scale := by
    show (∑ k : Fin 256, classSums x1 x3 (ix2 c k) * normT x0 (ix2 k b)) * scale = _
    refine congrArg (· * scale) (Finset.sum_congr rfl fun k _ => ?_)
    rw [normT_apply x0 k b, hg k]
    refine congrArg (· * ((g k : ℝ) : EReal)) ?_
    refine (scatter_zero_apply x3 x1 c k).trans ?_
    exact congrArg (0 + ·) (Finset.sum_congr rfl fun e _ => by rw [hf e k])
  have hR : val_main_v12 (F := Ideal) x0 x1 x3 (ix2 c b)
      = (0 : EReal) + ∑ e : Fin 65536, if (x3 (ix1 e)).toInt = (c.val : ℤ)
          then Ideal.div (∑ k : Fin 256, ((g k : ℝ) : EReal) * ((f e k : ℝ) : EReal)) ((13421773 / 268435456 : ℝ) : EReal) else 0 := by
    refine (scatter_zero_apply x3 (val_main_v9 (F := Ideal) x0 x1) c b).trans ?_
    refine congrArg (0 + ·) (Finset.sum_congr rfl fun e _ => ?_)
    refine if_congr Iff.rfl ?_ rfl
    rw [scoresT_apply x0 x1 e b]
    exact congrArg (Ideal.div · _) (Finset.sum_congr rfl fun k _ => by rw [hg k, hf e k])
  rw [hL, hR]
  exact Cert.SegmentLaw.ereal_law f g (fun e => (x3 (ix1 e)).toInt = (c.val : ℤ)) (268435456 / 13421773) (13421773 / 268435456)
    Cert.Consts.temp_ne_zero Cert.Consts.inv_temp

end Cert.Similarities

end
-- ==== Proof.KernelArray.lean ====
/-
  The region's result array as one function of its two operand arrays.

  The grid has four points; point `t` takes rows `2048·t … 2048·t + 2047` of the first operand `A` (8192 class rows
  of 256 entries), the whole second operand `B` (256 by 256), and writes the same rows of the result.  By the
  entry formula of one point's body, row `r` and column `q` of the result is

      scaledProduct A B (r, q) = (Σ_k A[r, k] · B[k, q]) · (268435456 / 13421773),

  whichever point wrote it: the four blocks are restrictions of this one function, and they tile the array.
-/
import proofs.«114621_j57346403336648_2_alg».proof.Proof.Gen.KernelIdeal.Frame
import proofs.«114621_j57346403336648_2_alg».proof.Proof.KernelBlock
import Idealize.ShloMosaic.Lib.Pipeline.Value

noncomputable section

namespace Cert.KernelIdeal.ArrayValue

open Cert.KernelIdeal Cert.KernelIdeal.Gen Cert.KernelIdeal.BlockValue
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ)

theorem offsets_zero : (![0, 0] : Fin 2 → Nat) = fun _ => 0 := funext fun a => by fin_cases a <;> rfl

/-- The printed index maps over the grid: the first operand's block moves with the result's along the rows and
    sits at column block 0, the second operand's block is always block (0, 0), and the result's row block is at
    most 3. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 3 :=
  (by decide +kernel : ∀ t : Fin grid0.N, _)

/-- Every row block is some point's. -/
theorem index_onto : ∀ q0 : Fin 4, ∃ t : Fin cfg0.N, win0_2.index t = ![q0.val, 0] :=
  (by decide +kernel : ∀ q0 : Fin 4, ∃ t : Fin grid0.N, win0_2.index t = ![q0.val, 0])

/-- What point `t` writes back is block `t` of the scaled product of the two operand arrays as the region finds them. -/
theorem flushed_eq (c : Dev nD) (t : Fin cfg0.N) :
    (dats m 0 c).flushed 2 t
      = ((cfg0.win 2).blk t).view.read (Elt Ideal) (scaledProduct (V m c main_v8) (V m c main_v5)) := by
  show (cfg0.win 2).cut (grid0.coords t) ((dats m 0 c).after 2 t) = _
  rw [after0_2]
  unfold out0_2
  rw [View.canon_unit_zero offsets_zero]
  simp only [View.ld_unit_zero (S := S2048x256) offsets_zero, View.ld_unit_zero (S := S256x256) offsets_zero]
  obtain ⟨e0, e1, e2, e3, e4, e5⟩ := index_facts t
  funext j
  obtain ⟨p, q, rfl⟩ : ∃ (p : Fin 2048) (q : Fin 256), j = ix2 p q := ⟨j 0, j 1, eq_ix2 j⟩
  refine (pay_apply (iblk m c 0 t) (iblk m c 1 t) p q).trans ?_
  obtain ⟨A, hA⟩ : ∃ A : S8192x256.Idx → EReal, A = V m c main_v8 := ⟨_, rfl⟩
  obtain ⟨B, hB⟩ : ∃ B : S256x256.Idx → EReal, B = V m c main_v5 := ⟨_, rfl⟩
  have h0 : ∀ y, iblk m c 0 t y = A (((cfg0.win 0).blk t).view.emb y) := fun y => by rw [hA]; rfl
  have h1 : ∀ y, iblk m c 1 t y = B (((cfg0.win 1).blk t).view.emb y) := fun y => by rw [hB]; rfl
  rw [← hA, ← hB]
  simp only [h0, h1]
  show _ = scaledProduct A B (((cfg0.win 2).blk t).view.emb (ix2 p q))
  unfold scaledProduct
  refine congrArg (· * scale) (Finset.sum_congr rfl fun k _ => ?_)
  have hA : ((cfg0.win 0).blk t).view.emb (ix2 p k)
      = ix2 (⟨((((cfg0.win 2).blk t).view.emb (ix2 p q)) 0).val, idx2_lt0 _⟩ : Fin 8192) k := by
    funext a; apply Fin.ext
    match a with
    | ⟨0, _⟩ => show win0_0.index t (0 : Fin 2) * 2048 + 1 * p.val = win0_2.index t (0 : Fin 2) * 2048 + 1 * p.val; omega
    | ⟨1, _⟩ => show win0_0.index t (1 : Fin 2) * 256 + 1 * k.val = k.val; omega
  have hB : ((cfg0.win 1).blk t).view.emb (ix2 k q)
      = ix2 k (⟨((((cfg0.win 2).blk t).view.emb (ix2 p q)) 1).val, idx2_lt1 _⟩ : Fin 256) := by
    funext a; apply Fin.ext
    match a with
    | ⟨0, _⟩ => show win0_1.index t (0 : Fin 2) * 256 + 1 * k.val = k.val; omega
    | ⟨1, _⟩ => show win0_1.index t (1 : Fin 2) * 256 + 1 * q.val = win0_2.index t (1 : Fin 2) * 256 + 1 * q.val; omega
  rw [hA, hB]

/-- An index of the array is in point `t`'s block iff each coordinate is in the block's range on its axis. -/
theorem mem_block (t : Fin cfg0.N) (i : S8192x256.Idx) :
    i ∈ ((cfg0.win 2).blk t).view.set ↔ ∀ a : Fin 2, win0_2.index t a * S2048x256.size a ≤ (i a).val
      ∧ (i a).val < win0_2.index t a * S2048x256.size a + S2048x256.size a := by
  show i ∈ ((View.whole main_v21).slice (win0_2.rect t)).set ↔ _
  rw [View.set_slice_whole, Rect.mem_set_unit]
  exact Iff.rfl

/-- The four blocks tile the array: row `r` is in the block of the point whose row block is `r / 2048`. -/
theorem covered (i : S8192x256.Idx) :
    ∃ t : Fin cfg0.N, (cfg0.win 2).flush t = true ∧ i ∈ ((cfg0.win 2).blk t).view.set := by
  have hi0 : (i 0).val < 8192 := idx2_lt0 i
  have hi1 : (i 1).val < 256 := idx2_lt1 i
  obtain ⟨t, ht⟩ := index_onto ⟨(i 0).val / 2048, by omega⟩
  have q0 : win0_2.index t (0 : Fin 2) = (i 0).val / 2048 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 256 ≤ (i 1).val ∧ (i 1).val < win0_2.index t (1 : Fin 2) * 256 + 256; omega

/-- The result array after the region: the scaled product of the operand arrays as the region finds them. -/
theorem final (c : Dev nD) :
    (dats m 0 c).arrAt 2 cfg0.N = scaledProduct (V m c main_v8) (V m c main_v5) :=
  (dats m 0 c).arrAt_eq_of_cover 2 (scaledProduct (V m c main_v8) (V m c main_v5)) (fun t _ => flushed_eq m c t) covered

end Cert.KernelIdeal.ArrayValue

end
-- ==== Proof.KernelRun.lean ====
/-
  The kernel program's run, read end to end.

  Every weakly fair execution ends with the result buffer holding the shared chain (`Shared.loss`) applied to
  * the scaled product of the class sums of `features` with the transposed normalised `inputs` (the region's
    result array: its four blocks tile it),
  * the per-class divisors and the mask computed from `labels`,
  * the two integer arguments,
  and with the four arguments unchanged.  The host lines before the region are read at the buffers the region and the
  lines after it consume; the lines after the region find the region's arrays at what the region left and every
  other buffer as it was at the region's entry.
-/
import proofs.«114621_j57346403336648_2_alg».proof.Proof.Gen.KernelIdeal.Frame
import proofs.«114621_j57346403336648_2_alg».proof.Proof.KernelArray
import proofs.«114621_j57346403336648_2_alg».proof.Proof.KernelHost

noncomputable section

namespace Cert.KernelIdeal.RunValue

open Cert.KernelIdeal Cert.KernelIdeal.Gen Idealize.ShloMosaic Idealize.ShloMosaic.TcCoe Idealize.SL.Sem
open Cert.KernelIdeal.BlockValue (scaledProduct)
open Cert.KernelIdeal.HostValue (classSums normT)

variable (m : (ℓ : Loc nD τ sig) → Buf (Elt Ideal) ℓ) (ρ : Dev nD → PrngReg)

/-- The program's result as a function of its four arguments. -/
def result (c : Dev nD) : Buf (Elt Ideal) ((c.tc : Thread nD τ).loc main_v62) :=
  Cert.Shared.loss
    (scaledProduct (classSums (m ((c.tc : Thread nD τ).loc main_arg1)) (m ((c.tc : Thread nD τ).loc main_arg3)))
      (normT (m ((c.tc : Thread nD τ).loc main_arg0))))
    (Cert.ReferenceIdeal.ReadP.val_main_v24 (F := Ideal) (m ((c.tc : Thread nD τ).loc main_arg3)))
    (Cert.ReferenceIdeal.ReadP.val_main_v20 (F := Ideal) (m ((c.tc : Thread nD τ).loc main_arg3)))
    (m ((c.tc : Thread nD τ).loc main_arg2)) (m ((c.tc : Thread nD τ).loc main_arg3))

/-- The region's first operand as the region finds it. -/
theorem entry_classSums (c : Dev nD) :
    V m c main_v8 = classSums (m ((c.tc : Thread nD τ).loc main_arg1)) (m ((c.tc : Thread nD τ).loc main_arg3)) :=
  HostValue.pre_classSums (fun b => m (c, b))

/-- The region's second operand as the region finds it. -/
theorem entry_normT (c : Dev nD) : V m c main_v5 = normT (m ((c.tc : Thread nD τ).loc main_arg0)) :=
  HostValue.pre_normT (fun b => m (c, b))

/-- What the lines after the region leave in the result buffer. -/
theorem tail_result (c : Dev nD) :
    Pipeline.afterTail₀ cfgs (dats m) 0 (V0 m) [hostOps1] c main_v62 = result m c := by
  unfold Pipeline.afterTail₀
  show StableHlo.after hostOps1 _ (Proc.devRef .tc main_v62) = _
  refine (HostValue.tail_loss _).trans ?_
  unfold result
  have h21 : Pipeline.withArrays (cfgs 0).spec c (V0 m c) (fun w => (dats m 0 c).arrAt w (cfgs 0).N) (Proc.devRef .tc main_v21)
      = scaledProduct (classSums (m ((c.tc : Thread nD τ).loc main_arg1)) (m ((c.tc : Thread nD τ).loc main_arg3)))
          (normT (m ((c.tc : Thread nD τ).loc main_arg0))) :=
    (Pipeline.withArrays_arr spec0 launch0.win.arr_inj c _ _ 2).trans
      ((ArrayValue.final m c).trans (congr (congrArg scaledProduct (entry_classSums m c)) (entry_normT m c)))
  have h20 : Pipeline.withArrays (cfgs 0).spec c (V0 m c) (fun w => (dats m 0 c).arrAt w (cfgs 0).N) (Proc.devRef .tc main_v20)
      = Cert.ReferenceIdeal.ReadP.val_main_v24 (F := Ideal) (m ((c.tc : Thread nD τ).loc main_arg3)) :=
    (Pipeline.withArrays_of_ne _ c (V0 m c) _ main_v20 (by exact (by decide : ∀ w, Pipeline.arrRef spec0 w ≠ main_v20))).trans
      (HostValue.pre_divisors (fun b => m (c, b)))
  have h16 : Pipeline.withArrays (cfgs 0).spec c (V0 m c) (fun w => (dats m 0 c).arrAt w (cfgs 0).N) (Proc.devRef .tc main_v16)
      = Cert.ReferenceIdeal.ReadP.val_main_v20 (F := Ideal) (m ((c.tc : Thread nD τ).loc main_arg3)) :=
    (Pipeline.withArrays_of_ne _ c (V0 m c) _ main_v16 (by exact (by decide : ∀ w, Pipeline.arrRef spec0 w ≠ main_v16))).trans
      (HostValue.pre_mask (fun b => m (c, b)))
  have h2 : Pipeline.withArrays (cfgs 0).spec c (V0 m c) (fun w => (dats m 0 c).arrAt w (cfgs 0).N) (Proc.devRef .tc main_arg2)
      = m ((c.tc : Thread nD τ).loc main_arg2) :=
    (Pipeline.withArrays_of_ne _ c (V0 m c) _ main_arg2 (by exact (by decide : ∀ w, Pipeline.arrRef spec0 w ≠ main_arg2))).trans
      (V_main_arg2 m c)
  have h3 : Pipeline.withArrays (cfgs 0).spec c (V0 m c) (fun w => (dats m 0 c).arrAt w (cfgs 0).N) (Proc.devRef .tc main_arg3)
      = m ((c.tc : Thread nD τ).loc main_arg3) :=
    (Pipeline.withArrays_of_ne _ c (V0 m c) _ main_arg3 (by exact (by decide : ∀ w, Pipeline.arrRef spec0 w ≠ main_arg3))).trans
      (V_main_arg3 m c)
  exact congr (congr (congr (congr (congrArg Cert.Shared.loss h21) h20) h16) h2) h3

/-- THE RUN: the result buffer ends at `result`, the arguments unchanged. -/
theorem run : θ_run defs (onTc (τ := τ) (main (F := Ideal))) ⟨m, fun _ => 0, ρ⟩ fun r => ∀ c : Dev nD,
      r.2.mem ((c.tc : Thread nD τ).loc main_v62) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v62 (Pipeline.mem_restRefs_of main_v62 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.RunValue

end
-- ==== Proof.lean ====
/-
  The kernel computes a contrastive memory-bank loss: the normalised `inputs` are scored against class prototypes
  obtained by summing the rows of `features` that carry each class label, scaled by the reciprocal of the
  temperature, and the scores go through a masked softmax, a logarithm and a mean over the batch.  The reference
  scores every row of `features` first, divides by the temperature, and only then sums the scores by class.

  * The frames of the two kernel programs are the generated frame certificates; the reference's frame is its run
    with the result dropped.
  * `preserves`: the one rewrite of the idealization names the kernel's scale constant; its statement is the rule's.
  * `algebraic`: both programs end with the same chain (`Shared.loss`) applied to the class similarities, the per-class
    divisors, the mask and the integer arguments; the divisors and mask are computed by the same host lines, and the
    similarities agree by linearity of the inner product (`Similarities.similarities_eq`), which needs the entries to
    be real numbers — that is what the precondition says of `inputs` and `features`, and the normalisation keeps it.
-/
import proofs.«114621_j57346403336648_2_alg».proof.Defs
import proofs.«114621_j57346403336648_2_alg».proof.Proof.Gen.Kernel
import proofs.«114621_j57346403336648_2_alg».proof.Proof.Gen.Kernel.Skeleton
import proofs.«114621_j57346403336648_2_alg».proof.Proof.Gen.Kernel.Launch
import proofs.«114621_j57346403336648_2_alg».proof.Proof.Gen.Kernel.Points
import proofs.«114621_j57346403336648_2_alg».proof.Proof.Gen.Kernel.Frame
import proofs.«114621_j57346403336648_2_alg».proof.Proof.Gen.KernelIdeal
import proofs.«114621_j57346403336648_2_alg».proof.Proof.Gen.KernelIdeal.Skeleton
import proofs.«114621_j57346403336648_2_alg».proof.Proof.Gen.KernelIdeal.Launch
import proofs.«114621_j57346403336648_2_alg».proof.Proof.Gen.KernelIdeal.Points
import proofs.«114621_j57346403336648_2_alg».proof.Proof.Gen.KernelIdeal.Frame
import proofs.«114621_j57346403336648_2_alg».proof.Proof.Gen.ReferenceIdeal
import proofs.«114621_j57346403336648_2_alg».proof.Proof.Gen.Pre_finite_inputs
import proofs.«114621_j57346403336648_2_alg».proof.Proof.RefRun
import proofs.«114621_j57346403336648_2_alg».proof.Proof.RefRead
import proofs.«114621_j57346403336648_2_alg».proof.Proof.Shared
import proofs.«114621_j57346403336648_2_alg».proof.Proof.Finite
import proofs.«114621_j57346403336648_2_alg».proof.Proof.Similarities
import proofs.«114621_j57346403336648_2_alg».proof.Proof.KernelRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- The table gives `"inv_temp"` the value `268435456 / 13421773`, and the printed constant is that value at the ideal
    instance. -/
theorem preserves : Cert.preserves_Kernel_KernelIdeal :=
  IdealRules.named_const.statement Cert.KernelIdeal.κ "inv_temp" .f32 0x41A00000#32 ((268435456 / 13421773 : ℝ) : EReal) rfl

/-- Under the precondition the kernel program's result is the reference's last stage of the same arguments. -/
theorem result_eq (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.KernelIdeal.RunValue.result m c
      = Cert.ReferenceIdeal.ReadP.val_main_v65 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  obtain ⟨h0, h1⟩ := Cert.Finite.allReal_of_pre _ _ _ _ (hpre c)
  rw [Cert.Shared.ref_eq_loss]
  unfold Cert.KernelIdeal.RunValue.result
  rw [Cert.Similarities.similarities_eq _ _ _ h0 h1]

theorem algebraic : Cert.algebraic_KernelIdeal_ReferenceIdeal := by
  intro m ρ m' ρ' hpre hagree
  refine ⟨fun c => Cert.KernelIdeal.RunValue.result m c, Cert.KernelIdeal.RunValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v65_eq, (hagree c).1, (hagree c).2.1, (hagree c).2.2.1, (hagree c).2.2.2]
  exact (result_eq m hpre c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
